-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩
abbrev S128x64 : Shape := ⟨2, ![128, 64]⟩
abbrev S64 : Shape := ⟨1, ![64]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v29 : IVec S_ 1) (main_v32 : IVec S128x64 1) : IVec S_ 1 :=
  let main_c_13 : IVec S_ 1 := constantI S_ 1 1#1
  let main_v33 : IVec S_ 1 := (fun x v => Host.reduce IntOp.andi x v reducesTo_S128x64_S_d0_1 h_S_) main_v32 main_c_13
  let main_v34 : IVec S_ 1 := andi main_v29 main_v33
  let main_v35 : FVec F S64 .f32 := Host.absf main_arg9
  let main_cst_14 : FVec F S_ .f32 := constant S_ .f32 0x7F800000#32
  let main_v36 : FVec F S64 .f32 := broadcastInDim S64 ![] bcast_S_S64 main_cst_14
  let main_v37 : IVec S64 1 := cmpf .olt main_v35 main_v36
  let main_c_15 : IVec S_ 1 := constantI S_ 1 1#1
  let main_v38 : IVec S_ 1 := (fun x v => Host.reduce IntOp.andi x v reducesTo_S64_S_d0 h_S_) main_v37 main_c_15
  let main_v39 : IVec S_ 1 := andi main_v34 main_v38
  main_v39

def fn_part1 {F : FTy → Type} [FloatOps F] (main_arg5 : FVec F S_ .f32) (main_arg6 : FVec F S_ .f32) (main_arg7 : FVec F S_ .f32) (main_arg8 : FVec F S128x64 .f32) (main_arg9 : FVec F S64 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg6
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  let main_v26 : FVec F S_ .f32 := Host.absf main_arg7
  let main_cst_10 : FVec F S_ .f32 := constant S_ .f32 0x7F800000#32
  let main_v27 : IVec S_ 1 := cmpf .olt main_v26 main_cst_10
  let main_c_11 : IVec S_ 1 := constantI S_ 1 1#1
  let main_v28 : IVec S_ 1 := (fun x v => Host.reduce IntOp.andi x v reducesTo_S_S_d h_S_) main_v27 main_c_11
  let main_v29 : IVec S_ 1 := andi main_v25 main_v28
  let main_v30 : FVec F S128x64 .f32 := Host.absf main_arg8
  let main_cst_12 : FVec F S_ .f32 := constant S_ .f32 0x7F800000#32
  let main_v31 : FVec F S128x64 .f32 := broadcastInDim S128x64 ![] bcast_S_S128x64 main_cst_12
  let main_v32 : IVec S128x64 1 := cmpf .olt main_v30 main_v31
  fn_part2 (F := F) main_arg9 main_v29 main_v32

def fn {F : FTy → Type} [FloatOps F] (main_arg0 : FVec F S100000x256 .f32) (main_arg1 : IVec S2x1600000 32) (main_arg2 : FVec F S256x128 .f32) (main_arg3 : FVec F S128 .f32) (main_arg4 : FVec F S_ .f32) (main_arg5 : FVec F S_ .f32) (main_arg6 : FVec F S_ .f32) (main_arg7 : FVec F S_ .f32) (main_arg8 : FVec F S128x64 .f32) (main_arg9 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_arg7 main_arg8 main_arg9 main_v13 main_v15 main_c_5
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1 : Shape := ⟨1, ![1]⟩
abbrev S4 : Shape := ⟨1, ![4]⟩
abbrev S1x128 : Shape := ⟨2, ![1, 128]⟩
abbrev S1x4 : Shape := ⟨2, ![1, 4]⟩
abbrev S1x1 : Shape := ⟨2, ![1, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 94
  | .vmem => 21
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1, .f32⟩
  | .hbm, ⟨68, _⟩ => ⟨S1, .f32⟩
  | .hbm, ⟨69, _⟩ => ⟨S1, .f32⟩
  | .hbm, ⟨70, _⟩ => ⟨S1, .f32⟩
  | .hbm, ⟨71, _⟩ => ⟨S4, .f32⟩
  | .hbm, ⟨72, _⟩ => ⟨S1x128, .f32⟩
  | .hbm, ⟨73, _⟩ => ⟨S1x4, .f32⟩
  | .hbm, ⟨74, _⟩ => ⟨S100000x128, .f32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S1x4, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S1 : S_.BroadcastsInDim S1 (![] : Fin 0 → Fin S1.rank)
  concatenates_S1_S1_S1_S1_S4_d0 : Shape.Concatenates [S1, S1, S1, S1] S4 0
  shapeCasts_S128_S1x128 : S128.ShapeCasts S1x128
  shapeCasts_S4_S1x4 : S4.ShapeCasts S1x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S1x4_o0_0_S1x1 : S1x4.Slices ![0, 0] S1x1
  inpos_S1x1_p0_0 : ∀ a, (![0, 0] : Fin 2 → Nat) a < S1x1.size a
  slices_S1x4_o0_1_S1x1 : S1x4.Slices ![0, 1] S1x1
  slices_S1x4_o0_2_S1x1 : S1x4.Slices ![0, 2] S1x1
  slices_S1x4_o0_3_S1x1 : S1x4.Slices ![0, 3] S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4.size a ≤ S1x4.size a
  hwx1_0 : ∀ i : grid1.Coords, EltTy.bits .f32 = 32 ∨ (Rect.block (s := S1x4) S1x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S1x4.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 149
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S_, .f32⟩
  | 5 => ⟨S_, .f32⟩
  | 6 => ⟨S_, .f32⟩
  | 7 => ⟨S_, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S100000x128, .f32⟩
  | 75 => ⟨S100000x128, .i1⟩
  | 76 => ⟨S100000x128, .f32⟩
  | 77 => ⟨S100000x128, .f32⟩
  | 78 => ⟨S100000x128, .f32⟩
  | 79 => ⟨S100000x128, .i1⟩
  | 80 => ⟨S100000x128, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S100000x64, .f32⟩
  | 91 => ⟨S100000, .i32⟩
  | 92 => ⟨S1700000, .i32⟩
  | 93 => ⟨S1700000, .i32⟩
  | 94 => ⟨S_, .f32⟩
  | 95 => ⟨S1700000, .f32⟩
  | 96 => ⟨S_, .f32⟩
  | 97 => ⟨S100000, .f32⟩
  | 98 => ⟨S1700000x1, .i32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S1700000x1, .f32⟩
  | _ => ⟨S100000x256, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_call3_v0 : Ref sig .tc := ⟨.hbm, 105, rfl⟩
abbrev main_call3_v1 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_23 : Ref sig .tc := ⟨.hbm, 146, rfl⟩
abbrev main_v107 : Ref sig .tc := ⟨.hbm, 147, rfl⟩
abbrev main_v108 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.BitsRegion0.lean ====
import proofs.«128814_j14697378087207_1_alg».proof.Proof.Gen.Kernel.Launch
import proofs.«128814_j14697378087207_1_alg».proof.Proof.Gen.Kernel.Skeleton
import proofs.«128814_j14697378087207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the matrix product of a row tile by a whole weight matrix

The pipeline walks 20 row tiles of 5000 rows. At each point the body reads the row tile of the left factor
and the whole right factor from their staging buffers, rounds both to bf16, multiplies them accumulating in f32 from
zero, and overwrites the whole output tile with the product. This file states, at the buffer contents `V` the region is
entered with, what each window's staging buffer holds before and after the body, proves the body's triple, and
discharges the pipeline's body obligation. -/

-- membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point, for any proof data whose array is
    `V`'s (`hA`) and whose body leaves the block in place (`hafter`): it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's current staging buffer holds its block at every point: it is fetched once, at the first
    point, and its block index (0, 0) never moves afterwards, so the body finds what the fetch left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, from offset (0, 0) -/

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S5000x128 := Rect.unit (s := S5000x128) ![0, 0] S5000x128.size inb_S5000x128_S5000x128_0_0

/-! ## What the body leaves in the output window's buffer -/

/-- The output tile's staging buffer after the body, from the two input blocks: its one store, of the product of the
    two whole loads. What the body read from the output buffer beforehand is not used. -/
def out0_2 (x0 : Vec F S5000x256 .f32) (x1 : Vec F S256x128 .f32) : Vec F S5000x128 .f32 :=
  View.canon [⟨r0_2, k0_pay1 (View.ld x0 r0_0) (View.ld x1 r0_1)⟩]

/-- The one store covers the buffer. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
import proofs.«128814_j14697378087207_1_alg».proof.Proof.Gen.Kernel.Launch
import proofs.«128814_j14697378087207_1_alg».proof.Proof.Gen.Kernel.Skeleton
import proofs.«128814_j14697378087207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated mix of a row block with a bias row and four coefficients, one block of 5000 rows per grid point -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the coefficient row, whose block index never moves) holds its block at every point, fetched there
    or not, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, whose block index never moves) holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x4 := Rect.unit (s := S1x4) ![0, 0] S1x4.size inb_S1x4_S1x4_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0

/-! ## What the body leaves in the output window's buffer -/

/-- Window 3's staging buffer after the body, from the input windows' blocks: its one store, of the gated mix of the
    row block plus the broadcast bias row, over the whole buffer. -/
def out1_3 (x0 : Vec F S1x4 .f32) (x1 : Vec F S5000x128 .f32) (x2 : Vec F S1x128 .f32) : Vec F S5000x128 .f32 :=
  View.canon [⟨r1_1, k1_pay1 (View.ld x0 r1_0) (View.ld x1 r1_1) (View.ld x2 r1_2)⟩]

/-- The one store is the whole rectangle, so it covers the buffer. -/
theorem cover1_3 (p0 : Vec F S5000x128 .f32) (y : S5000x128.Idx) :
    ∃ pc ∈ ([⟨r1_1, p0⟩] : List (View.Piece (Elt F) S5000x128 .f32)), y ∈ pc.1.set :=
  View.cover_of_tiled [⟨r1_1, p0⟩] S5000x128.size (by rfl) y

/-! ## The body's triple -/

set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S1x4 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S5000x128 .f32) (harg4 : arg4.IsWhole)
    (x0 : Vec F S1x4 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__grelu_kernel i arg1 harg1 arg2 harg2 arg3 harg3 arg4 harg4) K := by
  simp only [cc1__grelu_kernel_eq_skeleton]; unfold cc1__grelu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point `t`
    each input's buffer at its block and the output's at `out1_3` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
import proofs.«128814_j14697378087207_1_alg».proof.Proof.Gen.Kernel.Launch
import proofs.«128814_j14697378087207_1_alg».proof.Proof.Gen.Kernel.Skeleton
import proofs.«128814_j14697378087207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the matrix product of a row tile by a whole weight matrix

The pipeline walks 20 row tiles of 5000 rows. At each point the body reads the row tile of the left factor
and the whole right factor from their staging buffers, rounds both to bf16, multiplies them accumulating in f32 from
zero, and overwrites the whole output tile with the product. This file states, at the buffer contents `V` the region is
entered with, what each window's staging buffer holds before and after the body, proves the body's triple, and
discharges the pipeline's body obligation. -/

-- membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window's current staging buffer holds its block at every point, for any proof data whose array is
    `V`'s (`hA`) and whose body leaves the block in place (`hafter`): it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's current staging buffer holds its block at every point: it is fetched once, at the first
    point, and its block index (0, 0) never moves afterwards, so the body finds what the fetch left. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, from offset (0, 0) -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S5000x64 := Rect.unit (s := S5000x64) ![0, 0] S5000x64.size inb_S5000x64_S5000x64_0_0

/-! ## What the body leaves in the output window's buffer -/

/-- The output tile's staging buffer after the body, from the two input blocks: its one store, of the product of the
    two whole loads. What the body read from the output buffer beforehand is not used. -/
def out2_2 (x0 : Vec F S5000x128 .f32) (x1 : Vec F S128x64 .f32) : Vec F S5000x64 .f32 :=
  View.canon [⟨r2_2, k2_pay1 (View.ld x0 r2_0) (View.ld x1 r2_1)⟩]

/-- The one store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

/-! ## The body's triple -/

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
import proofs.«128814_j14697378087207_1_alg».proof.Proof.Gen.Kernel.Launch
import proofs.«128814_j14697378087207_1_alg».proof.Proof.Gen.Kernel.Skeleton
import proofs.«128814_j14697378087207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the row-broadcast bias add, one block of 5000 rows per grid point -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, whose block index never moves) holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0

/-! ## What the body leaves in the output window's buffer -/

/-- Window 2's staging buffer after the body, from the input windows' blocks: its one store, of the sum of the row
    block and the broadcast bias row, over the whole buffer. -/
def out3_2 (x0 : Vec F S5000x64 .f32) (x1 : Vec F S1x64 .f32) : Vec F S5000x64 .f32 :=
  View.canon [⟨r3_0, k3_pay1 (View.ld x0 r3_0) (View.ld x1 r3_1)⟩]

/-- The one store is the whole rectangle, so it covers the buffer. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents and the output's at anything, runs to the
    continuation holding the inputs' as they were and the output's at `out3_2` of the inputs'. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_add_kernel i arg1 harg1 arg2 harg2 arg3 harg3) K := by
  simp only [cc3__bias_add_kernel_eq_skeleton]; unfold cc3__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them (`V`); after the body at point `t`
    each input's buffer at its block and the output's at `out3_2` of the input blocks; the invariant leaves the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRunBase.lean ====
/-
  The contents of the core's unscoped buffers between the items of the program's @main, as printed,: a host head that
  builds the edge list with self-loops and the symmetric normalisation, then four tiled regions (a row-tiled matrix
  product, the gated mix, a second row-tiled product, the bias add) separated by the gather / scale / scatter-add
  stretches of the aggregation.

  A host stretch moves the contents by its operations' composed function. A region moves it only at its output array,
  which ends at the fold of the twenty row blocks the grid points write back; its input arrays and every other buffer
  end as they were found. This module names what each region finds and leaves, the table of the four regions' results,
  and the two facts each region's exit needs: its arrays hold what the pipeline leaves, every other buffer what it held.

  The text is generic in the float instance: nothing here looks inside a float.
-/
import proofs.«128814_j14697378087207_1_alg».proof.Proof.BitsRegion0
import proofs.«128814_j14697378087207_1_alg».proof.Proof.BitsRegion1
import proofs.«128814_j14697378087207_1_alg».proof.Proof.BitsRegion2
import proofs.«128814_j14697378087207_1_alg».proof.Proof.BitsRegion3
import proofs.«128814_j14697378087207_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents each region finds and leaves

Region K is entered at the contents `entK` and leaves `leftK`: its arrays at what its write-backs leave, every other
buffer as entered. What a later item finds depends on what the earlier regions left, so the four are defined in order,
each over a table of the earlier regions' results; the last table, `outs`, has all four. -/

/-- What region 0 finds: the launch contents after the host head. -/
abbrev ent0 : (c : Dev nD) → (b : Ref sig .tc) → Buf (Elt F) ((c : Thread nD τ).loc b) := fun c b => V3 m c b
/-- What region 0 leaves. -/
def left0 (c : Dev nD) : Valuation τ sig (Elt F) :=
  Pipeline.withArrays spec0 c (V3 m c) fun w => (dat0 (ent0 m) c).arrAt w cfg0.N
/-- The regions' results known after region 0. -/
def outsA : Outs (F := F) := fun _ r c => left0 m c (Proc.devRef .tc r)

/-- What region 1 finds: region 0's result aggregated over the edges, and the stacked coefficients. -/
abbrev ent1 : (c : Dev nD) → (b : Ref sig .tc) → Buf (Elt F) ((c : Thread nD τ).loc b) := fun c b => V5 m (outsA m) c b
/-- What region 1 leaves. -/
def left1 (c : Dev nD) : Valuation τ sig (Elt F) :=
  Pipeline.withArrays spec1 c (V5 m (outsA m) c) fun w => (dat1 (ent1 m) c).arrAt w cfg1.N
/-- The regions' results known after region 1. -/
def outsB : Outs (F := F) := fun J r c => match J with
  | 4 => left0 m c (Proc.devRef .tc r)
  | _ => left1 m c (Proc.devRef .tc r)

/-- What region 2 finds: region 1's result, untouched by any host operation. -/
abbrev ent2 : (c : Dev nD) → (b : Ref sig .tc) → Buf (Elt F) ((c : Thread nD τ).loc b) := fun c b => V6 m (outsB m) c b
/-- What region 2 leaves. -/
def left2 (c : Dev nD) : Valuation τ sig (Elt F) :=
  Pipeline.withArrays spec2 c (V6 m (outsB m) c) fun w => (dat2 (ent2 m) c).arrAt w cfg2.N
/-- The regions' results known after region 2. -/
def outsC : Outs (F := F) := fun J r c => match J with
  | 4 => left0 m c (Proc.devRef .tc r)
  | 6 => left1 m c (Proc.devRef .tc r)
  | _ => left2 m c (Proc.devRef .tc r)

/-- What region 3 finds: region 2's result aggregated over the edges, and the bias as a row. -/
abbrev ent3 : (c : Dev nD) → (b : Ref sig .tc) → Buf (Elt F) ((c : Thread nD τ).loc b) := fun c b => V8 m (outsC m) c b
/-- What region 3 leaves. -/
def left3 (c : Dev nD) : Valuation τ sig (Elt F) :=
  Pipeline.withArrays spec3 c (V8 m (outsC m) c) fun w => (dat3 (ent3 m) c).arrAt w cfg3.N
/-- What each region leaves in the buffer it may change: position 4 region 0's, 6 region 1's, 7 region 2's, 9 region 3's. -/
def outs : Outs (F := F) := fun J r c => match J with
  | 4 => left0 m c (Proc.devRef .tc r)
  | 6 => left1 m c (Proc.devRef .tc r)
  | 7 => left2 m c (Proc.devRef .tc r)
  | _ => left3 m c (Proc.devRef .tc r)

/-- A region's arrays after it, read off what it leaves. -/
theorem left0_arr (c : Dev nD) (w : Fin cfg0.W) : left0 m c (Proc.devRef .tc (Pipeline.arrRef spec0 w)) = (dat0 (ent0 m) c).arrAt w cfg0.N := by
  unfold left0; exact Pipeline.withArrays_arr spec0 launch0.win.arr_inj c _ _ w
theorem left1_arr (c : Dev nD) (w : Fin cfg1.W) : left1 m c (Proc.devRef .tc (Pipeline.arrRef spec1 w)) = (dat1 (ent1 m) c).arrAt w cfg1.N := by
  unfold left1; exact Pipeline.withArrays_arr spec1 launch1.win.arr_inj c _ _ w
theorem left2_arr (c : Dev nD) (w : Fin cfg2.W) : left2 m c (Proc.devRef .tc (Pipeline.arrRef spec2 w)) = (dat2 (ent2 m) c).arrAt w cfg2.N := by
  unfold left2; exact Pipeline.withArrays_arr spec2 launch2.win.arr_inj c _ _ w
theorem left3_arr (c : Dev nD) (w : Fin cfg3.W) : left3 m c (Proc.devRef .tc (Pipeline.arrRef spec3 w)) = (dat3 (ent3 m) c).arrAt w cfg3.N := by
  unfold left3; exact Pipeline.withArrays_arr spec3 launch3.win.arr_inj c _ _ w

/-! ## The tables agree on what the earlier regions left

The contents before a region read only the EARLIER regions' entries of the table, so they are the same through the last
table as through the table the region's proof data were stated over: a congruence over those entries, never a
comparison of two folded valuations. -/

theorem V4_congr (X Y : Outs (F := F)) (c : Dev nD) (h4 : X 4 main_v30 c = Y 4 main_v30 c) : V4 m X c = V4 m Y c := by
  show Function.update (V3 m c) (Proc.devRef .tc main_v30) (X 4 main_v30 c) = Function.update (V3 m c) (Proc.devRef .tc main_v30) (Y 4 main_v30 c)
  rw [h4]
theorem V5_congr (X Y : Outs (F := F)) (c : Dev nD) (h4 : X 4 main_v30 c = Y 4 main_v30 c) : V5 m X c = V5 m Y c := by
  show StableHlo.after hostOps1 (V4 m X c) = StableHlo.after hostOps1 (V4 m Y c)
  rw [V4_congr m X Y c h4]
theorem V6_congr (X Y : Outs (F := F)) (c : Dev nD) (h4 : X 4 main_v30 c = Y 4 main_v30 c) (h6 : X 6 main_v51 c = Y 6 main_v51 c) :
    V6 m X c = V6 m Y c := by
  show Function.update (V5 m X c) (Proc.devRef .tc main_v51) (X 6 main_v51 c) = Function.update (V5 m Y c) (Proc.devRef .tc main_v51) (Y 6 main_v51 c)
  rw [V5_congr m X Y c h4, h6]
theorem V7_congr (X Y : Outs (F := F)) (c : Dev nD) (h4 : X 4 main_v30 c = Y 4 main_v30 c) (h6 : X 6 main_v51 c = Y 6 main_v51 c)
    (h7 : X 7 main_v52 c = Y 7 main_v52 c) : V7 m X c = V7 m Y c := by
  show Function.update (V6 m X c) (Proc.devRef .tc main_v52) (X 7 main_v52 c) = Function.update (V6 m Y c) (Proc.devRef .tc main_v52) (Y 7 main_v52 c)
  rw [V6_congr m X Y c h4 h6, h7]
theorem V8_congr (X Y : Outs (F := F)) (c : Dev nD) (h4 : X 4 main_v30 c = Y 4 main_v30 c) (h6 : X 6 main_v51 c = Y 6 main_v51 c)
    (h7 : X 7 main_v52 c = Y 7 main_v52 c) : V8 m X c = V8 m Y c := by
  show StableHlo.after hostOps3 (V7 m X c) = StableHlo.after hostOps3 (V7 m Y c)
  rw [V7_congr m X Y c h4 h6 h7]

/-- A table's entry at a literal position, read off its definition. -/
theorem outsA_at (J : ℕ) (r : Ref sig .tc) (c : Dev nD) : outsA m J r c = left0 m c (Proc.devRef .tc r) := rfl
theorem outsB_4 (r : Ref sig .tc) (c : Dev nD) : outsB m 4 r c = left0 m c (Proc.devRef .tc r) := rfl
theorem outsB_6 (r : Ref sig .tc) (c : Dev nD) : outsB m 6 r c = left1 m c (Proc.devRef .tc r) := rfl
theorem outsC_4 (r : Ref sig .tc) (c : Dev nD) : outsC m 4 r c = left0 m c (Proc.devRef .tc r) := rfl
theorem outsC_6 (r : Ref sig .tc) (c : Dev nD) : outsC m 6 r c = left1 m c (Proc.devRef .tc r) := rfl
theorem outsC_7 (r : Ref sig .tc) (c : Dev nD) : outsC m 7 r c = left2 m c (Proc.devRef .tc r) := rfl
theorem outs_at4 (r : Ref sig .tc) (c : Dev nD) : outs m 4 r c = left0 m c (Proc.devRef .tc r) := rfl
theorem outs_at6 (r : Ref sig .tc) (c : Dev nD) : outs m 6 r c = left1 m c (Proc.devRef .tc r) := rfl
theorem outs_at7 (r : Ref sig .tc) (c : Dev nD) : outs m 7 r c = left2 m c (Proc.devRef .tc r) := rfl

/-- What region 1 finds, read through the last table. -/
theorem pre1_eq (c : Dev nD) : V5 m (outs m) c = V5 m (outsA m) c :=
  V5_congr m (outs m) (outsA m) c ((outs_at4 m main_v30 c).trans (outsA_at m 4 main_v30 c).symm)
/-- What region 2 finds, read through the last table. -/
theorem pre2_eq (c : Dev nD) : V6 m (outs m) c = V6 m (outsB m) c :=
  V6_congr m (outs m) (outsB m) c ((outs_at4 m main_v30 c).trans (outsB_4 m main_v30 c).symm)
    ((outs_at6 m main_v51 c).trans (outsB_6 m main_v51 c).symm)
/-- What region 3 finds, read through the last table. -/
theorem pre3_eq (c : Dev nD) : V8 m (outs m) c = V8 m (outsC m) c :=
  V8_congr m (outs m) (outsC m) c ((outs_at4 m main_v30 c).trans (outsC_4 m main_v30 c).symm)
    ((outs_at6 m main_v51 c).trans (outsC_6 m main_v51 c).symm) ((outs_at7 m main_v52 c).trans (outsC_7 m main_v52 c).symm)

/-! ## The proof data family and what rides beside the buffers -/

/-- Every pipeline's proof data, each at the contents its region finds (a literal match on the pipeline's number). -/
def pdats : (p : Fin 4) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

/-- No region reads a variant; no core owes another anything, so no level is assigned. -/
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- The table's entry for region 0 is what the region leaves. -/
theorem outs_4 (r : Ref sig .tc) (c : Dev nD) : outs m 4 r c = left0 m c (Proc.devRef .tc r) := rfl

/-- At region 0's exit each of its arrays holds what the pipeline leaves: an input's array what it held at entry
    (no write-back touches it), the output's array the fold of its twenty write-backs. -/
theorem hF0 (c : Dev nD) : ∀ w : Fin cfg0.W, (dat0 (ent0 m) c).arrAt w cfg0.N = V4 m (outs m) c (Pipeline.arrRef spec0 w)
  | ⟨0, _⟩ => ((dat0 (ent0 m) c).arrAt_in 0 rfl _).trans ((A_eq0 (ent0 m) c 0).trans ((V4_of m (outs m) c main_arg0 (by decide)).symm))
  | ⟨1, _⟩ => ((dat0 (ent0 m) c).arrAt_in 1 rfl _).trans ((A_eq0 (ent0 m) c 1).trans ((V4_of m (outs m) c main_arg2 (by decide)).symm))
  | ⟨2, _⟩ => by
    show _ = Function.update (V3 m c) (Proc.devRef .tc main_v30) (outs m 4 main_v30 c) (Proc.devRef .tc main_v30)
    rw [Function.update_self, outs_4]
    exact (left0_arr m c 2).symm

/-- Every buffer that is not one of region 0's arrays holds at its exit what it held at its entry. -/
theorem hrest0 (c : Dev nD) : ∀ b : Ref sig .tc, b ∉ Finset.univ.image (Pipeline.arrRef spec0) → V4 m (outs m) c b = ent0 m c b :=
  fun b hb => (V4_of m (outs m) c b fun h => hb (by
    rw [List.mem_singleton] at h; subst h
    exact Finset.mem_image.mpr ⟨2, Finset.mem_univ _, rfl⟩))

/-! ## Region 1's arrays at its exit -/

/-- The table's entry for region 1 is what the region leaves. -/
theorem outs_6 (r : Ref sig .tc) (c : Dev nD) : outs m 6 r c = left1 m c (Proc.devRef .tc r) := rfl

/-- At region 1's exit each of its arrays holds what the pipeline leaves: an input's array what it held at entry
    (no write-back touches it), the output's array the fold of its twenty write-backs. -/
theorem hF1 (c : Dev nD) : ∀ w : Fin cfg1.W, (dat1 (ent1 m) c).arrAt w cfg1.N = V6 m (outs m) c (Pipeline.arrRef spec1 w)
  | ⟨0, _⟩ => ((dat1 (ent1 m) c).arrAt_in 0 rfl _).trans ((A_eq1 (ent1 m) c 0).trans ((congrFun (pre1_eq m c) _).symm.trans (V6_of m (outs m) c main_v50 (by decide)).symm))
  | ⟨1, _⟩ => ((dat1 (ent1 m) c).arrAt_in 1 rfl _).trans ((A_eq1 (ent1 m) c 1).trans ((congrFun (pre1_eq m c) _).symm.trans (V6_of m (outs m) c main_v43 (by decide)).symm))
  | ⟨2, _⟩ => ((dat1 (ent1 m) c).arrAt_in 2 rfl _).trans ((A_eq1 (ent1 m) c 2).trans ((congrFun (pre1_eq m c) _).symm.trans (V6_of m (outs m) c main_v49 (by decide)).symm))
  | ⟨3, _⟩ => by
    show _ = Function.update (V5 m (outs m) c) (Proc.devRef .tc main_v51) (outs m 6 main_v51 c) (Proc.devRef .tc main_v51)
    rw [Function.update_self, outs_6]
    exact (left1_arr m c 3).symm

/-- Every buffer that is not one of region 1's arrays holds at its exit what it held at its entry. -/
theorem hrest1 (c : Dev nD) : ∀ b : Ref sig .tc, b ∉ Finset.univ.image (Pipeline.arrRef spec1) → V6 m (outs m) c b = ent1 m c b :=
  fun b hb => (V6_of m (outs m) c b fun h => hb (by
    rw [List.mem_singleton] at h; subst h
    exact Finset.mem_image.mpr ⟨3, Finset.mem_univ _, rfl⟩)).trans (congrFun (pre1_eq m c) _)

/-! ## Region 2's arrays at its exit -/

/-- The table's entry for region 2 is what the region leaves. -/
theorem outs_7 (r : Ref sig .tc) (c : Dev nD) : outs m 7 r c = left2 m c (Proc.devRef .tc r) := rfl

/-- At region 2's exit each of its arrays holds what the pipeline leaves: an input's array what it held at entry
    (no write-back touches it), the output's array the fold of its twenty write-backs. -/
theorem hF2 (c : Dev nD) : ∀ w : Fin cfg2.W, (dat2 (ent2 m) c).arrAt w cfg2.N = V7 m (outs m) c (Pipeline.arrRef spec2 w)
  | ⟨0, _⟩ => ((dat2 (ent2 m) c).arrAt_in 0 rfl _).trans ((A_eq2 (ent2 m) c 0).trans ((congrFun (pre2_eq m c) _).symm.trans (V7_of m (outs m) c main_v51 (by decide)).symm))
  | ⟨1, _⟩ => ((dat2 (ent2 m) c).arrAt_in 1 rfl _).trans ((A_eq2 (ent2 m) c 1).trans ((congrFun (pre2_eq m c) _).symm.trans (V7_of m (outs m) c main_arg8 (by decide)).symm))
  | ⟨2, _⟩ => by
    show _ = Function.update (V6 m (outs m) c) (Proc.devRef .tc main_v52) (outs m 7 main_v52 c) (Proc.devRef .tc main_v52)
    rw [Function.update_self, outs_7]
    exact (left2_arr m c 2).symm

/-- Every buffer that is not one of region 2's arrays holds at its exit what it held at its entry. -/
theorem hrest2 (c : Dev nD) : ∀ b : Ref sig .tc, b ∉ Finset.univ.image (Pipeline.arrRef spec2) → V7 m (outs m) c b = ent2 m c b :=
  fun b hb => (V7_of m (outs m) c b fun h => hb (by
    rw [List.mem_singleton] at h; subst h
    exact Finset.mem_image.mpr ⟨2, Finset.mem_univ _, rfl⟩)).trans (congrFun (pre2_eq m c) _)

/-! ## Region 3's arrays at its exit -/

/-- The table's entry for region 3 is what the region leaves. -/
theorem outs_9 (r : Ref sig .tc) (c : Dev nD) : outs m 9 r c = left3 m c (Proc.devRef .tc r) := rfl

/-- At region 3's exit each of its arrays holds what the pipeline leaves: an input's array what it held at entry
    (no write-back touches it), the output's array the fold of its twenty write-backs. -/
theorem hF3 (c : Dev nD) : ∀ w : Fin cfg3.W, (dat3 (ent3 m) c).arrAt w cfg3.N = V9 m (outs m) c (Pipeline.arrRef spec3 w)
  | ⟨0, _⟩ => ((dat3 (ent3 m) c).arrAt_in 0 rfl _).trans ((A_eq3 (ent3 m) c 0).trans ((congrFun (pre3_eq m c) _).symm.trans (V9_of m (outs m) c main_v65 (by decide)).symm))
  | ⟨1, _⟩ => ((dat3 (ent3 m) c).arrAt_in 1 rfl _).trans ((A_eq3 (ent3 m) c 1).trans ((congrFun (pre3_eq m c) _).symm.trans (V9_of m (outs m) c main_v66 (by decide)).symm))
  | ⟨2, _⟩ => by
    show _ = Function.update (V8 m (outs m) c) (Proc.devRef .tc main_v67) (outs m 9 main_v67 c) (Proc.devRef .tc main_v67)
    rw [Function.update_self, outs_9]
    exact (left3_arr m c 2).symm

/-- Every buffer that is not one of region 3's arrays holds at its exit what it held at its entry. -/
theorem hrest3 (c : Dev nD) : ∀ b : Ref sig .tc, b ∉ Finset.univ.image (Pipeline.arrRef spec3) → V9 m (outs m) c b = ent3 m c b :=
  fun b hb => (V9_of m (outs m) c b fun h => hb (by
    rw [List.mem_singleton] at h; subst h
    exact Finset.mem_image.mpr ⟨2, Finset.mem_univ _, rfl⟩)).trans (congrFun (pre3_eq m c) _)

end Cert.Kernel.Hand

end
-- ==== Proof.BitsRunReg0.lean ====
/-
  Region 0 of the program's @main, as printed, as one item of the run: entered with every unscoped buffer of the core at
  the contents before it, left with them at the contents after it, the generator register and the core's dues (nothing)
  riding beside. Generic in the float instance.
-/
import proofs.«128814_j14697378087207_1_alg».proof.Proof.BitsRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 0 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRunReg1.lean ====
/-
  Region 1 of the program's @main, as printed, as one item of the run: entered with every unscoped buffer of the core at
  the contents before it, left with them at the contents after it, the generator register and the core's dues (nothing)
  riding beside. Generic in the float instance.
-/
import proofs.«128814_j14697378087207_1_alg».proof.Proof.BitsRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V5 m (outsA m) c) ∗ Rest c)
  post c := iprop(StableHlo.held (c : Thread nD τ) (Pipeline.ucRefs τ sig) (V6 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRunReg2.lean ====
/-
  Region 2 of the program's @main, as printed, as one item of the run: entered with every unscoped buffer of the core at
  the contents before it, left with them at the contents after it, the generator register and the core's dues (nothing)
  riding beside. Generic in the float instance.
-/
import proofs.«128814_j14697378087207_1_alg».proof.Proof.BitsRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 2 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (V6 m (outsB m) c) ∗ Rest c)
  post c := iprop(StableHlo.held (c : Thread nD τ) (Pipeline.ucRefs τ sig) (V7 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (fun b => V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRunReg3.lean ====
/-
  Region 3 of the program's @main, as printed, as one item of the run: entered with every unscoped buffer of the core at
  the contents before it, left with them at the contents after it, the generator register and the core's dues (nothing)
  riding beside. Generic in the float instance.
-/
import proofs.«128814_j14697378087207_1_alg».proof.Proof.BitsRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 3 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (V8 m (outsC m) c) ∗ Rest c)
  post c := iprop((StableHlo.held (c : Thread nD τ) (Pipeline.ucRefs τ sig) (V9 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (fun b => V9 m (outs m) c b) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.BitsRun.lean ====
/-
  The run of the program's @main, as printed, as a whole. Chaining its nine items (five host stretches, four regions) gives
  ONE statement about the final memory: every unscoped buffer holds the last contents. From it follow that each argument
  array ends as launched (no item writes one) and what the result array holds (the last region's folded write-backs).
  Generic in the float instance.
-/
import proofs.«128814_j14697378087207_1_alg».proof.Proof.BitsRunReg0
import proofs.«128814_j14697378087207_1_alg».proof.Proof.BitsRunReg1
import proofs.«128814_j14697378087207_1_alg».proof.Proof.BitsRunReg2
import proofs.«128814_j14697378087207_1_alg».proof.Proof.BitsRunReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The run -/

/-- The last thread state without the dues: every unscoped buffer at the last contents, the generator register at some state. -/
abbrev Tlast (c : Dev nD) : sProp 𝕄 := iprop(StableHlo.held (c : Thread nD τ) (Pipeline.ucRefs τ sig) (V9 m (outs m) c) ∗ ∃ r, prngReg c r)

-- the library's launch theorem finds its implicit arguments by unifying its conclusion with this one, which takes unfolding plain
-- definitions in a metavariable's type
set_option backward.isDefEq.respectTransparency.types false in
/-- From any memory with zero counters every weakly fair execution of @main terminates, nothing faulting, and in the
    final memory every unscoped buffer of every core holds the last contents: the nine items chained (each host stretch
    from the contents before it, each region by its record), the launch dealing each core its buffers, its generator
    register and no dues, the last thread state read against the final memory. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) := by
  refine Pipeline.θ_run_regions_kit_dev (pcfgs (F := F)) adm (pdats m) () cellOf_inj emb₁ defs₀ 𝒱₀ L lv m ρ main
    (segs m (outs m) 𝒱₀ L lv (fun _ => Rest) () (pdats m) (reg0 m) (reg1 m) (reg2 m) (reg3 m))
    (fun c Q => by
      rewrite [main_chain c, Seg.run_eq_chain,
        show (segs m (outs m) 𝒱₀ L lv (fun _ => Rest) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tlast m)
    (hch := fun c => ⟨.rfl, .rfl, .rfl, .rfl, .rfl,
      -- a region is entered at the contents its proof data were stated over: the same contents, read through the last table
      (by
        show (iprop(StableHlo.held (c : Thread nD τ) (Pipeline.ucRefs τ sig) (V5 m (outs m) c) ∗ Rest c) : sProp 𝕄)
          ⊢ iprop(StableHlo.held (c : Thread nD τ) (Pipeline.ucRefs τ sig) (V5 m (outsA m) c) ∗ Rest c)
        rw [pre1_eq m c]),
      (by
        show (iprop(StableHlo.held (c : Thread nD τ) (Pipeline.ucRefs τ sig) (V6 m (outs m) c) ∗ Rest c) : sProp 𝕄)
          ⊢ iprop(StableHlo.held (c : Thread nD τ) (Pipeline.ucRefs τ sig) (V6 m (outsB m) c) ∗ Rest c)
        rw [pre2_eq m c]),
      .rfl,
      (by
        show (iprop(StableHlo.held (c : Thread nD τ) (Pipeline.ucRefs τ sig) (V8 m (outs m) c) ∗ Rest c) : sProp 𝕄)
          ⊢ iprop(StableHlo.held (c : Thread nD τ) (Pipeline.ucRefs τ sig) (V8 m (outsC m) c) ∗ Rest c)
        rw [pre3_eq m c]),
      .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c => h c)

/-- The result array after the run: the last region's folded write-backs. -/
theorem last_result (c : Dev nD) : V9 m (outs m) c main_v67 = (dat3 (ent3 m) c).arrAt 2 cfg3.N := by
  rw [V9, Function.update_self]
  exact left3_arr m c 2

/-- THE FRAME with the result named: every weakly fair execution of @main terminates, nothing faulting; the result array
    ends at the last region's folded write-backs and each argument array ends as launched. -/
theorem run_result (ρ : Dev nD → PrngReg) :
    θ_run defs (onTc (τ := τ) (main (F := F))) ⟨m, fun _ => 0, ρ⟩ (fun r => ∀ c : Dev nD,
      r.2.mem ((c.tc : Thread nD τ).loc main_v67) = (dat3 (ent3 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v67 (by decide))).trans (last_result m c),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c)⟩) (run_all m ρ)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Hand

end
-- ==== Proof.IdealRegion0.lean ====
import proofs.«128814_j14697378087207_1_alg».proof.Proof.Gen.KernelIdeal.Launch
import proofs.«128814_j14697378087207_1_alg».proof.Proof.Gen.KernelIdeal.Skeleton
import proofs.«128814_j14697378087207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the matrix product of a row tile by a whole weight matrix

The pipeline walks 20 row tiles of 5000 rows. At each point the body reads the row tile of the left factor
and the whole right factor from their staging buffers, rounds both to bf16, multiplies them accumulating in f32 from
zero, and overwrites the whole output tile with the product. This file states, at the buffer contents `V` the region is
entered with, what each window's staging buffer holds before and after the body, proves the body's triple, and
discharges the pipeline's body obligation. -/

-- membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's current staging buffer holds its block at every point, for any proof data whose array is
    `V`'s (`hA`) and whose body leaves the block in place (`hafter`): it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's current staging buffer holds its block at every point: it is fetched once, at the first
    point, and its block index (0, 0) never moves afterwards, so the body finds what the fetch left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, from offset (0, 0) -/

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S5000x128 := Rect.unit (s := S5000x128) ![0, 0] S5000x128.size inb_S5000x128_S5000x128_0_0

/-! ## What the body leaves in the output window's buffer -/

/-- The output tile's staging buffer after the body, from the two input blocks: its one store, of the product of the
    two whole loads. What the body read from the output buffer beforehand is not used. -/
def out0_2 (x0 : Vec F S5000x256 .f32) (x1 : Vec F S256x128 .f32) : Vec F S5000x128 .f32 :=
  View.canon [⟨r0_2, k0_pay1 (View.ld x0 r0_0) (View.ld x1 r0_1)⟩]

/-- The one store covers the buffer. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
import proofs.«128814_j14697378087207_1_alg».proof.Proof.Gen.KernelIdeal.Launch
import proofs.«128814_j14697378087207_1_alg».proof.Proof.Gen.KernelIdeal.Skeleton
import proofs.«128814_j14697378087207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated mix of a row block with a bias row and four coefficients, one block of 5000 rows per grid point -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the coefficient row, whose block index never moves) holds its block at every point, fetched there
    or not, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row, whose block index never moves) holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x4 := Rect.unit (s := S1x4) ![0, 0] S1x4.size inb_S1x4_S1x4_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0

/-! ## What the body leaves in the output window's buffer -/

/-- Window 3's staging buffer after the body, from the input windows' blocks: its one store, of the gated mix of the
    row block plus the broadcast bias row, over the whole buffer. -/
def out1_3 (x0 : Vec F S1x4 .f32) (x1 : Vec F S5000x128 .f32) (x2 : Vec F S1x128 .f32) : Vec F S5000x128 .f32 :=
  View.canon [⟨r1_1, k1_pay1 (View.ld x0 r1_0) (View.ld x1 r1_1) (View.ld x2 r1_2)⟩]

/-- The one store is the whole rectangle, so it covers the buffer. -/
theorem cover1_3 (p0 : Vec F S5000x128 .f32) (y : S5000x128.Idx) :
    ∃ pc ∈ ([⟨r1_1, p0⟩] : List (View.Piece (Elt F) S5000x128 .f32)), y ∈ pc.1.set :=
  View.cover_of_tiled [⟨r1_1, p0⟩] S5000x128.size (by rfl) y

/-! ## The body's triple -/

set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords) (arg1 : Memref sig .tc .vmem S1x4 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S5000x128 .f32) (harg4 : arg4.IsWhole)
    (x0 : Vec F S1x4 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__grelu_kernel i arg1 harg1 arg2 harg2 arg3 harg3 arg4 harg4) K := by
  simp only [cc1__grelu_kernel_eq_skeleton]; unfold cc1__grelu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point `t`
    each input's buffer at its block and the output's at `out1_3` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
import proofs.«128814_j14697378087207_1_alg».proof.Proof.Gen.KernelIdeal.Launch
import proofs.«128814_j14697378087207_1_alg».proof.Proof.Gen.KernelIdeal.Skeleton
import proofs.«128814_j14697378087207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the matrix product of a row tile by a whole weight matrix

The pipeline walks 20 row tiles of 5000 rows. At each point the body reads the row tile of the left factor
and the whole right factor from their staging buffers, rounds both to bf16, multiplies them accumulating in f32 from
zero, and overwrites the whole output tile with the product. This file states, at the buffer contents `V` the region is
entered with, what each window's staging buffer holds before and after the body, proves the body's triple, and
discharges the pipeline's body obligation. -/

-- membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window's current staging buffer holds its block at every point, for any proof data whose array is
    `V`'s (`hA`) and whose body leaves the block in place (`hafter`): it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's current staging buffer holds its block at every point: it is fetched once, at the first
    point, and its block index (0, 0) never moves afterwards, so the body finds what the fetch left. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, from offset (0, 0) -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S5000x64 := Rect.unit (s := S5000x64) ![0, 0] S5000x64.size inb_S5000x64_S5000x64_0_0

/-! ## What the body leaves in the output window's buffer -/

/-- The output tile's staging buffer after the body, from the two input blocks: its one store, of the product of the
    two whole loads. What the body read from the output buffer beforehand is not used. -/
def out2_2 (x0 : Vec F S5000x128 .f32) (x1 : Vec F S128x64 .f32) : Vec F S5000x64 .f32 :=
  View.canon [⟨r2_2, k2_pay1 (View.ld x0 r2_0) (View.ld x1 r2_1)⟩]

/-- The one store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

/-! ## The body's triple -/

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
import proofs.«128814_j14697378087207_1_alg».proof.Proof.Gen.KernelIdeal.Launch
import proofs.«128814_j14697378087207_1_alg».proof.Proof.Gen.KernelIdeal.Skeleton
import proofs.«128814_j14697378087207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: the row-broadcast bias add, one block of 5000 rows per grid point -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, whose block index never moves) holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S1x64 := Rect.unit (s := S1x64) ![0, 0] S1x64.size inb_S1x64_S1x64_0_0

/-! ## What the body leaves in the output window's buffer -/

/-- Window 2's staging buffer after the body, from the input windows' blocks: its one store, of the sum of the row
    block and the broadcast bias row, over the whole buffer. -/
def out3_2 (x0 : Vec F S5000x64 .f32) (x1 : Vec F S1x64 .f32) : Vec F S5000x64 .f32 :=
  View.canon [⟨r3_0, k3_pay1 (View.ld x0 r3_0) (View.ld x1 r3_1)⟩]

/-- The one store is the whole rectangle, so it covers the buffer. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents and the output's at anything, runs to the
    continuation holding the inputs' as they were and the output's at `out3_2` of the inputs'. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_add_kernel i arg1 harg1 arg2 harg2 arg3 harg3) K := by
  simp only [cc3__bias_add_kernel_eq_skeleton]; unfold cc3__bias_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them (`V`); after the body at point `t`
    each input's buffer at its block and the output's at `out3_2` of the input blocks; the invariant leaves the scoped
    rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRunBase.lean ====
/-
  The contents of the core's unscoped buffers between the items of the idealized program's @main: a host head that
  builds the edge list with self-loops and the symmetric normalisation, then four tiled regions (a row-tiled matrix
  product, the gated mix, a second row-tiled product, the bias add) separated by the gather / scale / scatter-add
  stretches of the aggregation.

  A host stretch moves the contents by its operations' composed function. A region moves it only at its output array,
  which ends at the fold of the twenty row blocks the grid points write back; its input arrays and every other buffer
  end as they were found. This module names what each region finds and leaves, the table of the four regions' results,
  and the two facts each region's exit needs: its arrays hold what the pipeline leaves, every other buffer what it held.

  The text is generic in the float instance: nothing here looks inside a float.
-/
import proofs.«128814_j14697378087207_1_alg».proof.Proof.IdealRegion0
import proofs.«128814_j14697378087207_1_alg».proof.Proof.IdealRegion1
import proofs.«128814_j14697378087207_1_alg».proof.Proof.IdealRegion2
import proofs.«128814_j14697378087207_1_alg».proof.Proof.IdealRegion3
import proofs.«128814_j14697378087207_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents each region finds and leaves

Region K is entered at the contents `entK` and leaves `leftK`: its arrays at what its write-backs leave, every other
buffer as entered. What a later item finds depends on what the earlier regions left, so the four are defined in order,
each over a table of the earlier regions' results; the last table, `outs`, has all four. -/

/-- What region 0 finds: the launch contents after the host head. -/
abbrev ent0 : (c : Dev nD) → (b : Ref sig .tc) → Buf (Elt F) ((c : Thread nD τ).loc b) := fun c b => V3 m c b
/-- What region 0 leaves. -/
def left0 (c : Dev nD) : Valuation τ sig (Elt F) :=
  Pipeline.withArrays spec0 c (V3 m c) fun w => (dat0 (ent0 m) c).arrAt w cfg0.N
/-- The regions' results known after region 0. -/
def outsA : Outs (F := F) := fun _ r c => left0 m c (Proc.devRef .tc r)

/-- What region 1 finds: region 0's result aggregated over the edges, and the stacked coefficients. -/
abbrev ent1 : (c : Dev nD) → (b : Ref sig .tc) → Buf (Elt F) ((c : Thread nD τ).loc b) := fun c b => V5 m (outsA m) c b
/-- What region 1 leaves. -/
def left1 (c : Dev nD) : Valuation τ sig (Elt F) :=
  Pipeline.withArrays spec1 c (V5 m (outsA m) c) fun w => (dat1 (ent1 m) c).arrAt w cfg1.N
/-- The regions' results known after region 1. -/
def outsB : Outs (F := F) := fun J r c => match J with
  | 4 => left0 m c (Proc.devRef .tc r)
  | _ => left1 m c (Proc.devRef .tc r)

/-- What region 2 finds: region 1's result, untouched by any host operation. -/
abbrev ent2 : (c : Dev nD) → (b : Ref sig .tc) → Buf (Elt F) ((c : Thread nD τ).loc b) := fun c b => V6 m (outsB m) c b
/-- What region 2 leaves. -/
def left2 (c : Dev nD) : Valuation τ sig (Elt F) :=
  Pipeline.withArrays spec2 c (V6 m (outsB m) c) fun w => (dat2 (ent2 m) c).arrAt w cfg2.N
/-- The regions' results known after region 2. -/
def outsC : Outs (F := F) := fun J r c => match J with
  | 4 => left0 m c (Proc.devRef .tc r)
  | 6 => left1 m c (Proc.devRef .tc r)
  | _ => left2 m c (Proc.devRef .tc r)

/-- What region 3 finds: region 2's result aggregated over the edges, and the bias as a row. -/
abbrev ent3 : (c : Dev nD) → (b : Ref sig .tc) → Buf (Elt F) ((c : Thread nD τ).loc b) := fun c b => V8 m (outsC m) c b
/-- What region 3 leaves. -/
def left3 (c : Dev nD) : Valuation τ sig (Elt F) :=
  Pipeline.withArrays spec3 c (V8 m (outsC m) c) fun w => (dat3 (ent3 m) c).arrAt w cfg3.N
/-- What each region leaves in the buffer it may change: position 4 region 0's, 6 region 1's, 7 region 2's, 9 region 3's. -/
def outs : Outs (F := F) := fun J r c => match J with
  | 4 => left0 m c (Proc.devRef .tc r)
  | 6 => left1 m c (Proc.devRef .tc r)
  | 7 => left2 m c (Proc.devRef .tc r)
  | _ => left3 m c (Proc.devRef .tc r)

/-- A region's arrays after it, read off what it leaves. -/
theorem left0_arr (c : Dev nD) (w : Fin cfg0.W) : left0 m c (Proc.devRef .tc (Pipeline.arrRef spec0 w)) = (dat0 (ent0 m) c).arrAt w cfg0.N := by
  unfold left0; exact Pipeline.withArrays_arr spec0 launch0.win.arr_inj c _ _ w
theorem left1_arr (c : Dev nD) (w : Fin cfg1.W) : left1 m c (Proc.devRef .tc (Pipeline.arrRef spec1 w)) = (dat1 (ent1 m) c).arrAt w cfg1.N := by
  unfold left1; exact Pipeline.withArrays_arr spec1 launch1.win.arr_inj c _ _ w
theorem left2_arr (c : Dev nD) (w : Fin cfg2.W) : left2 m c (Proc.devRef .tc (Pipeline.arrRef spec2 w)) = (dat2 (ent2 m) c).arrAt w cfg2.N := by
  unfold left2; exact Pipeline.withArrays_arr spec2 launch2.win.arr_inj c _ _ w
theorem left3_arr (c : Dev nD) (w : Fin cfg3.W) : left3 m c (Proc.devRef .tc (Pipeline.arrRef spec3 w)) = (dat3 (ent3 m) c).arrAt w cfg3.N := by
  unfold left3; exact Pipeline.withArrays_arr spec3 launch3.win.arr_inj c _ _ w

/-! ## The tables agree on what the earlier regions left

The contents before a region read only the EARLIER regions' entries of the table, so they are the same through the last
table as through the table the region's proof data were stated over: a congruence over those entries, never a
comparison of two folded valuations. -/

theorem V4_congr (X Y : Outs (F := F)) (c : Dev nD) (h4 : X 4 main_v30 c = Y 4 main_v30 c) : V4 m X c = V4 m Y c := by
  show Function.update (V3 m c) (Proc.devRef .tc main_v30) (X 4 main_v30 c) = Function.update (V3 m c) (Proc.devRef .tc main_v30) (Y 4 main_v30 c)
  rw [h4]
theorem V5_congr (X Y : Outs (F := F)) (c : Dev nD) (h4 : X 4 main_v30 c = Y 4 main_v30 c) : V5 m X c = V5 m Y c := by
  show StableHlo.after hostOps1 (V4 m X c) = StableHlo.after hostOps1 (V4 m Y c)
  rw [V4_congr m X Y c h4]
theorem V6_congr (X Y : Outs (F := F)) (c : Dev nD) (h4 : X 4 main_v30 c = Y 4 main_v30 c) (h6 : X 6 main_v51 c = Y 6 main_v51 c) :
    V6 m X c = V6 m Y c := by
  show Function.update (V5 m X c) (Proc.devRef .tc main_v51) (X 6 main_v51 c) = Function.update (V5 m Y c) (Proc.devRef .tc main_v51) (Y 6 main_v51 c)
  rw [V5_congr m X Y c h4, h6]
theorem V7_congr (X Y : Outs (F := F)) (c : Dev nD) (h4 : X 4 main_v30 c = Y 4 main_v30 c) (h6 : X 6 main_v51 c = Y 6 main_v51 c)
    (h7 : X 7 main_v52 c = Y 7 main_v52 c) : V7 m X c = V7 m Y c := by
  show Function.update (V6 m X c) (Proc.devRef .tc main_v52) (X 7 main_v52 c) = Function.update (V6 m Y c) (Proc.devRef .tc main_v52) (Y 7 main_v52 c)
  rw [V6_congr m X Y c h4 h6, h7]
theorem V8_congr (X Y : Outs (F := F)) (c : Dev nD) (h4 : X 4 main_v30 c = Y 4 main_v30 c) (h6 : X 6 main_v51 c = Y 6 main_v51 c)
    (h7 : X 7 main_v52 c = Y 7 main_v52 c) : V8 m X c = V8 m Y c := by
  show StableHlo.after hostOps3 (V7 m X c) = StableHlo.after hostOps3 (V7 m Y c)
  rw [V7_congr m X Y c h4 h6 h7]

/-- A table's entry at a literal position, read off its definition. -/
theorem outsA_at (J : ℕ) (r : Ref sig .tc) (c : Dev nD) : outsA m J r c = left0 m c (Proc.devRef .tc r) := rfl
theorem outsB_4 (r : Ref sig .tc) (c : Dev nD) : outsB m 4 r c = left0 m c (Proc.devRef .tc r) := rfl
theorem outsB_6 (r : Ref sig .tc) (c : Dev nD) : outsB m 6 r c = left1 m c (Proc.devRef .tc r) := rfl
theorem outsC_4 (r : Ref sig .tc) (c : Dev nD) : outsC m 4 r c = left0 m c (Proc.devRef .tc r) := rfl
theorem outsC_6 (r : Ref sig .tc) (c : Dev nD) : outsC m 6 r c = left1 m c (Proc.devRef .tc r) := rfl
theorem outsC_7 (r : Ref sig .tc) (c : Dev nD) : outsC m 7 r c = left2 m c (Proc.devRef .tc r) := rfl
theorem outs_at4 (r : Ref sig .tc) (c : Dev nD) : outs m 4 r c = left0 m c (Proc.devRef .tc r) := rfl
theorem outs_at6 (r : Ref sig .tc) (c : Dev nD) : outs m 6 r c = left1 m c (Proc.devRef .tc r) := rfl
theorem outs_at7 (r : Ref sig .tc) (c : Dev nD) : outs m 7 r c = left2 m c (Proc.devRef .tc r) := rfl

/-- What region 1 finds, read through the last table. -/
theorem pre1_eq (c : Dev nD) : V5 m (outs m) c = V5 m (outsA m) c :=
  V5_congr m (outs m) (outsA m) c ((outs_at4 m main_v30 c).trans (outsA_at m 4 main_v30 c).symm)
/-- What region 2 finds, read through the last table. -/
theorem pre2_eq (c : Dev nD) : V6 m (outs m) c = V6 m (outsB m) c :=
  V6_congr m (outs m) (outsB m) c ((outs_at4 m main_v30 c).trans (outsB_4 m main_v30 c).symm)
    ((outs_at6 m main_v51 c).trans (outsB_6 m main_v51 c).symm)
/-- What region 3 finds, read through the last table. -/
theorem pre3_eq (c : Dev nD) : V8 m (outs m) c = V8 m (outsC m) c :=
  V8_congr m (outs m) (outsC m) c ((outs_at4 m main_v30 c).trans (outsC_4 m main_v30 c).symm)
    ((outs_at6 m main_v51 c).trans (outsC_6 m main_v51 c).symm) ((outs_at7 m main_v52 c).trans (outsC_7 m main_v52 c).symm)

/-! ## The proof data family and what rides beside the buffers -/

/-- Every pipeline's proof data, each at the contents its region finds (a literal match on the pipeline's number). -/
def pdats : (p : Fin 4) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

/-- No region reads a variant; no core owes another anything, so no level is assigned. -/
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0's arrays at its exit -/

/-- The table's entry for region 0 is what the region leaves. -/
theorem outs_4 (r : Ref sig .tc) (c : Dev nD) : outs m 4 r c = left0 m c (Proc.devRef .tc r) := rfl

/-- At region 0's exit each of its arrays holds what the pipeline leaves: an input's array what it held at entry
    (no write-back touches it), the output's array the fold of its twenty write-backs. -/
theorem hF0 (c : Dev nD) : ∀ w : Fin cfg0.W, (dat0 (ent0 m) c).arrAt w cfg0.N = V4 m (outs m) c (Pipeline.arrRef spec0 w)
  | ⟨0, _⟩ => ((dat0 (ent0 m) c).arrAt_in 0 rfl _).trans ((A_eq0 (ent0 m) c 0).trans ((V4_of m (outs m) c main_arg0 (by decide)).symm))
  | ⟨1, _⟩ => ((dat0 (ent0 m) c).arrAt_in 1 rfl _).trans ((A_eq0 (ent0 m) c 1).trans ((V4_of m (outs m) c main_arg2 (by decide)).symm))
  | ⟨2, _⟩ => by
    show _ = Function.update (V3 m c) (Proc.devRef .tc main_v30) (outs m 4 main_v30 c) (Proc.devRef .tc main_v30)
    rw [Function.update_self, outs_4]
    exact (left0_arr m c 2).symm

/-- Every buffer that is not one of region 0's arrays holds at its exit what it held at its entry. -/
theorem hrest0 (c : Dev nD) : ∀ b : Ref sig .tc, b ∉ Finset.univ.image (Pipeline.arrRef spec0) → V4 m (outs m) c b = ent0 m c b :=
  fun b hb => (V4_of m (outs m) c b fun h => hb (by
    rw [List.mem_singleton] at h; subst h
    exact Finset.mem_image.mpr ⟨2, Finset.mem_univ _, rfl⟩))

/-! ## Region 1's arrays at its exit -/

/-- The table's entry for region 1 is what the region leaves. -/
theorem outs_6 (r : Ref sig .tc) (c : Dev nD) : outs m 6 r c = left1 m c (Proc.devRef .tc r) := rfl

/-- At region 1's exit each of its arrays holds what the pipeline leaves: an input's array what it held at entry
    (no write-back touches it), the output's array the fold of its twenty write-backs. -/
theorem hF1 (c : Dev nD) : ∀ w : Fin cfg1.W, (dat1 (ent1 m) c).arrAt w cfg1.N = V6 m (outs m) c (Pipeline.arrRef spec1 w)
  | ⟨0, _⟩ => ((dat1 (ent1 m) c).arrAt_in 0 rfl _).trans ((A_eq1 (ent1 m) c 0).trans ((congrFun (pre1_eq m c) _).symm.trans (V6_of m (outs m) c main_v50 (by decide)).symm))
  | ⟨1, _⟩ => ((dat1 (ent1 m) c).arrAt_in 1 rfl _).trans ((A_eq1 (ent1 m) c 1).trans ((congrFun (pre1_eq m c) _).symm.trans (V6_of m (outs m) c main_v43 (by decide)).symm))
  | ⟨2, _⟩ => ((dat1 (ent1 m) c).arrAt_in 2 rfl _).trans ((A_eq1 (ent1 m) c 2).trans ((congrFun (pre1_eq m c) _).symm.trans (V6_of m (outs m) c main_v49 (by decide)).symm))
  | ⟨3, _⟩ => by
    show _ = Function.update (V5 m (outs m) c) (Proc.devRef .tc main_v51) (outs m 6 main_v51 c) (Proc.devRef .tc main_v51)
    rw [Function.update_self, outs_6]
    exact (left1_arr m c 3).symm

/-- Every buffer that is not one of region 1's arrays holds at its exit what it held at its entry. -/
theorem hrest1 (c : Dev nD) : ∀ b : Ref sig .tc, b ∉ Finset.univ.image (Pipeline.arrRef spec1) → V6 m (outs m) c b = ent1 m c b :=
  fun b hb => (V6_of m (outs m) c b fun h => hb (by
    rw [List.mem_singleton] at h; subst h
    exact Finset.mem_image.mpr ⟨3, Finset.mem_univ _, rfl⟩)).trans (congrFun (pre1_eq m c) _)

/-! ## Region 2's arrays at its exit -/

/-- The table's entry for region 2 is what the region leaves. -/
theorem outs_7 (r : Ref sig .tc) (c : Dev nD) : outs m 7 r c = left2 m c (Proc.devRef .tc r) := rfl

/-- At region 2's exit each of its arrays holds what the pipeline leaves: an input's array what it held at entry
    (no write-back touches it), the output's array the fold of its twenty write-backs. -/
theorem hF2 (c : Dev nD) : ∀ w : Fin cfg2.W, (dat2 (ent2 m) c).arrAt w cfg2.N = V7 m (outs m) c (Pipeline.arrRef spec2 w)
  | ⟨0, _⟩ => ((dat2 (ent2 m) c).arrAt_in 0 rfl _).trans ((A_eq2 (ent2 m) c 0).trans ((congrFun (pre2_eq m c) _).symm.trans (V7_of m (outs m) c main_v51 (by decide)).symm))
  | ⟨1, _⟩ => ((dat2 (ent2 m) c).arrAt_in 1 rfl _).trans ((A_eq2 (ent2 m) c 1).trans ((congrFun (pre2_eq m c) _).symm.trans (V7_of m (outs m) c main_arg8 (by decide)).symm))
  | ⟨2, _⟩ => by
    show _ = Function.update (V6 m (outs m) c) (Proc.devRef .tc main_v52) (outs m 7 main_v52 c) (Proc.devRef .tc main_v52)
    rw [Function.update_self, outs_7]
    exact (left2_arr m c 2).symm

/-- Every buffer that is not one of region 2's arrays holds at its exit what it held at its entry. -/
theorem hrest2 (c : Dev nD) : ∀ b : Ref sig .tc, b ∉ Finset.univ.image (Pipeline.arrRef spec2) → V7 m (outs m) c b = ent2 m c b :=
  fun b hb => (V7_of m (outs m) c b fun h => hb (by
    rw [List.mem_singleton] at h; subst h
    exact Finset.mem_image.mpr ⟨2, Finset.mem_univ _, rfl⟩)).trans (congrFun (pre2_eq m c) _)

/-! ## Region 3's arrays at its exit -/

/-- The table's entry for region 3 is what the region leaves. -/
theorem outs_9 (r : Ref sig .tc) (c : Dev nD) : outs m 9 r c = left3 m c (Proc.devRef .tc r) := rfl

/-- At region 3's exit each of its arrays holds what the pipeline leaves: an input's array what it held at entry
    (no write-back touches it), the output's array the fold of its twenty write-backs. -/
theorem hF3 (c : Dev nD) : ∀ w : Fin cfg3.W, (dat3 (ent3 m) c).arrAt w cfg3.N = V9 m (outs m) c (Pipeline.arrRef spec3 w)
  | ⟨0, _⟩ => ((dat3 (ent3 m) c).arrAt_in 0 rfl _).trans ((A_eq3 (ent3 m) c 0).trans ((congrFun (pre3_eq m c) _).symm.trans (V9_of m (outs m) c main_v65 (by decide)).symm))
  | ⟨1, _⟩ => ((dat3 (ent3 m) c).arrAt_in 1 rfl _).trans ((A_eq3 (ent3 m) c 1).trans ((congrFun (pre3_eq m c) _).symm.trans (V9_of m (outs m) c main_v66 (by decide)).symm))
  | ⟨2, _⟩ => by
    show _ = Function.update (V8 m (outs m) c) (Proc.devRef .tc main_v67) (outs m 9 main_v67 c) (Proc.devRef .tc main_v67)
    rw [Function.update_self, outs_9]
    exact (left3_arr m c 2).symm

/-- Every buffer that is not one of region 3's arrays holds at its exit what it held at its entry. -/
theorem hrest3 (c : Dev nD) : ∀ b : Ref sig .tc, b ∉ Finset.univ.image (Pipeline.arrRef spec3) → V9 m (outs m) c b = ent3 m c b :=
  fun b hb => (V9_of m (outs m) c b fun h => hb (by
    rw [List.mem_singleton] at h; subst h
    exact Finset.mem_image.mpr ⟨2, Finset.mem_univ _, rfl⟩)).trans (congrFun (pre3_eq m c) _)

end Cert.KernelIdeal.Hand

end
-- ==== Proof.IdealRunReg0.lean ====
/-
  Region 0 of the idealized program's @main as one item of the run: entered with every unscoped buffer of the core at
  the contents before it, left with them at the contents after it, the generator register and the core's dues (nothing)
  riding beside. Generic in the float instance.
-/
import proofs.«128814_j14697378087207_1_alg».proof.Proof.IdealRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 0 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealRunReg1.lean ====
/-
  Region 1 of the idealized program's @main as one item of the run: entered with every unscoped buffer of the core at
  the contents before it, left with them at the contents after it, the generator register and the core's dues (nothing)
  riding beside. Generic in the float instance.
-/
import proofs.«128814_j14697378087207_1_alg».proof.Proof.IdealRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V5 m (outsA m) c) ∗ Rest c)
  post c := iprop(StableHlo.held (c : Thread nD τ) (Pipeline.ucRefs τ sig) (V6 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealRunReg2.lean ====
/-
  Region 2 of the idealized program's @main as one item of the run: entered with every unscoped buffer of the core at
  the contents before it, left with them at the contents after it, the generator register and the core's dues (nothing)
  riding beside. Generic in the float instance.
-/
import proofs.«128814_j14697378087207_1_alg».proof.Proof.IdealRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 2 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (V6 m (outsB m) c) ∗ Rest c)
  post c := iprop(StableHlo.held (c : Thread nD τ) (Pipeline.ucRefs τ sig) (V7 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (fun b => V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealRunReg3.lean ====
/-
  Region 3 of the idealized program's @main as one item of the run: entered with every unscoped buffer of the core at
  the contents before it, left with them at the contents after it, the generator register and the core's dues (nothing)
  riding beside. Generic in the float instance.
-/
import proofs.«128814_j14697378087207_1_alg».proof.Proof.IdealRunBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 3 as a segment: entered with every unscoped buffer at the contents before it and left with them at the
    contents after it. Its arrays are split out of the unscoped buffers at entry and put back at exit with the output's
    array at what the write-backs leave; the generator register goes into the pipeline's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (V8 m (outsC m) c) ∗ Rest c)
  post c := iprop((StableHlo.held (c : Thread nD τ) (Pipeline.ucRefs τ sig) (V9 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (fun b => V9 m (outs m) c b) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.IdealRun.lean ====
/-
  The run of the idealized program's @main as a whole. Chaining its nine items (five host stretches, four regions) gives
  ONE statement about the final memory: every unscoped buffer holds the last contents. From it follow that each argument
  array ends as launched (no item writes one) and what the result array holds (the last region's folded write-backs).
  Generic in the float instance.
-/
import proofs.«128814_j14697378087207_1_alg».proof.Proof.IdealRunReg0
import proofs.«128814_j14697378087207_1_alg».proof.Proof.IdealRunReg1
import proofs.«128814_j14697378087207_1_alg».proof.Proof.IdealRunReg2
import proofs.«128814_j14697378087207_1_alg».proof.Proof.IdealRunReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The run -/

/-- The last thread state without the dues: every unscoped buffer at the last contents, the generator register at some state. -/
abbrev Tlast (c : Dev nD) : sProp 𝕄 := iprop(StableHlo.held (c : Thread nD τ) (Pipeline.ucRefs τ sig) (V9 m (outs m) c) ∗ ∃ r, prngReg c r)

-- the library's launch theorem finds its implicit arguments by unifying its conclusion with this one, which takes unfolding plain
-- definitions in a metavariable's type
set_option backward.isDefEq.respectTransparency.types false in
/-- From any memory with zero counters every weakly fair execution of @main terminates, nothing faulting, and in the
    final memory every unscoped buffer of every core holds the last contents: the nine items chained (each host stretch
    from the contents before it, each region by its record), the launch dealing each core its buffers, its generator
    register and no dues, the last thread state read against the final memory. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) := by
  refine Pipeline.θ_run_regions_kit_dev (pcfgs (F := F)) adm (pdats m) () cellOf_inj emb₁ defs₀ 𝒱₀ L lv m ρ main
    (segs m (outs m) 𝒱₀ L lv (fun _ => Rest) () (pdats m) (reg0 m) (reg1 m) (reg2 m) (reg3 m))
    (fun c Q => by
      rewrite [main_chain c, Seg.run_eq_chain,
        show (segs m (outs m) 𝒱₀ L lv (fun _ => Rest) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c)) (Tₙ := Tlast m)
    (hch := fun c => ⟨.rfl, .rfl, .rfl, .rfl, .rfl,
      -- a region is entered at the contents its proof data were stated over: the same contents, read through the last table
      (by
        show (iprop(StableHlo.held (c : Thread nD τ) (Pipeline.ucRefs τ sig) (V5 m (outs m) c) ∗ Rest c) : sProp 𝕄)
          ⊢ iprop(StableHlo.held (c : Thread nD τ) (Pipeline.ucRefs τ sig) (V5 m (outsA m) c) ∗ Rest c)
        rw [pre1_eq m c]),
      (by
        show (iprop(StableHlo.held (c : Thread nD τ) (Pipeline.ucRefs τ sig) (V6 m (outs m) c) ∗ Rest c) : sProp 𝕄)
          ⊢ iprop(StableHlo.held (c : Thread nD τ) (Pipeline.ucRefs τ sig) (V6 m (outsB m) c) ∗ Rest c)
        rw [pre2_eq m c]),
      .rfl,
      (by
        show (iprop(StableHlo.held (c : Thread nD τ) (Pipeline.ucRefs τ sig) (V8 m (outs m) c) ∗ Rest c) : sProp 𝕄)
          ⊢ iprop(StableHlo.held (c : Thread nD τ) (Pipeline.ucRefs τ sig) (V8 m (outsC m) c) ∗ Rest c)
        rw [pre3_eq m c]),
      .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c => h c)

/-- The result array after the run: the last region's folded write-backs. -/
theorem last_result (c : Dev nD) : V9 m (outs m) c main_v67 = (dat3 (ent3 m) c).arrAt 2 cfg3.N := by
  rw [V9, Function.update_self]
  exact left3_arr m c 2

/-- THE FRAME with the result named: every weakly fair execution of @main terminates, nothing faulting; the result array
    ends at the last region's folded write-backs and each argument array ends as launched. -/
theorem run_result (ρ : Dev nD → PrngReg) :
    θ_run defs (onTc (τ := τ) (main (F := F))) ⟨m, fun _ => 0, ρ⟩ (fun r => ∀ c : Dev nD,
      r.2.mem ((c.tc : Thread nD τ).loc main_v67) = (dat3 (ent3 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v67 (by decide))).trans (last_result m c),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c),
     (h c _ (mem_uc main_arg4 (by decide))).trans (V9_main_arg4 m (outs m) c),
     (h c _ (mem_uc main_arg5 (by decide))).trans (V9_main_arg5 m (outs m) c),
     (h c _ (mem_uc main_arg6 (by decide))).trans (V9_main_arg6 m (outs m) c),
     (h c _ (mem_uc main_arg7 (by decide))).trans (V9_main_arg7 m (outs m) c),
     (h c _ (mem_uc main_arg8 (by decide))).trans (V9_main_arg8 m (outs m) c),
     (h c _ (mem_uc main_arg9 (by decide))).trans (V9_main_arg9 m (outs m) c)⟩) (run_all m ρ)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Hand

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«128814_j14697378087207_1_alg».proof.Proof.LibPlainMatmul
import proofs.«128814_j14697378087207_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.IdealValue0.lean ====
import proofs.«128814_j14697378087207_1_alg».proof.Proof.IdealRegion0
import proofs.«128814_j14697378087207_1_alg».proof.Proof.LibMatrixProduct
import Idealize.ShloMosaic.Lib.Pipeline.Value

/-! # Region 0 at the exact extended reals: the output array is the matrix product

The pipeline writes the output array tile by tile: point `t` writes rows `5000 t … 5000 t + 4999`, holding the
product of those rows of the left factor by the whole right factor. Rounding the operands to a narrower format is the
identity at the exact extended reals and the accumulator starts at zero, so each tile is a row block of the
product of the two whole arrays; the twenty tiles cover all 100000 rows, so the array ends as that product. -/

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.MatrixProduct (mm)

variable (V : (c : Dev nD) → (b : Ref sig .tc) → Buf (Elt Ideal) ((c : Thread nD τ).loc b))

/-- The body's loads and its store start at offset (0, 0). -/
theorem zeroOffsets0 : (![0, 0] : Fin 2 → Nat) = fun _ => 0 := funext fun a => by fin_cases a <;> rfl

/-! ## A tile's payload is the product of its two loaded blocks -/

/-- Narrowing to bf16 changes nothing at the exact extended reals, and the product accumulates from zero. -/
theorem pay0_eq (x0 : FVec Ideal S5000x256 .f32) (x1 : FVec Ideal S256x128 .f32) :
    k0_pay1 (F := Ideal) x0 x1 = mm x0 x1 := by
  unfold k0_pay1
  exact Cert.MatrixProduct.matmul_zero_eq_mm dot_S5000x256_S256x128_S5000x128_1_0_0_1_n_n_wf none
    (truncf .bf16 x0 bitsLt_bf16_f32) (truncf .bf16 x1 bitsLt_bf16_f32)

/-! ## Where the blocks sit in their arrays -/

/-- The block indices at point `t`: the row tiles of the left factor and of the output are tile `t`; the right
    factor's one block is the whole array. Decided over the twenty points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left factor's block at point `t` is row `5000 t + p` of the array. -/
theorem rows0_apply (c : Dev nD) (t : Fin cfg0.N) (p : Fin 5000) (k : Fin 256) (r : Fin 100000)
    (hr : r.val = t.val * 5000 + p.val) :
    (iblk0 V c 0 t : FVec Ideal S5000x256 .f32) (ix2 p k) = (V c main_arg0 : FVec Ideal S100000x256 .f32) (ix2 r k) := by
  obtain ⟨e0, e1, -⟩ := idx_facts0 t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- The right factor's block at any point is the whole array. -/
theorem weights0_apply (c : Dev nD) (t : Fin cfg0.N) (k : Fin 256) (q q' : Fin 128) (hq : q'.val = q.val) :
    (iblk0 V c 1 t : FVec Ideal S256x128 .f32) (ix2 k q) = (V c main_arg2 : FVec Ideal S256x128 .f32) (ix2 k q') := by
  obtain ⟨-, -, e2, e3, -⟩ := idx_facts0 t
  show V c main_arg2 (((cfg0.win 1).blk t).view.emb (ix2 k q)) = V c main_arg2 (ix2 k q')
  refine congrArg (V c main_arg2) ?_
  funext a; apply Fin.ext
  match a with
  | ⟨0, _⟩ => show win0_1.index t (0 : Fin 2) * 256 + 1 * k.val = k.val; omega
  | ⟨1, _⟩ => show win0_1.index t (1 : Fin 2) * 128 + 1 * q.val = q'.val; omega

/-! ## What a point writes back -/

/-- Point `t` writes back block `t` of the product of the two arrays as the region finds them. -/
theorem flushed0_eq (c : Dev nD) (t : Fin cfg0.N) :
    (dat0 (F := Ideal) V c).flushed 2 t
      = ((cfg0.win 2).blk t).view.read (Elt Ideal) (mm (V c main_arg0 : FVec Ideal S100000x256 .f32) (V c main_arg2 : FVec Ideal S256x128 .f32)) := by
  show (cfg0.win 2).cut (grid0.coords t) ((dat0 V c).after 2 t) = _
  rw [after0_2]
  unfold out0_2
  rw [View.canon_unit_zero zeroOffsets0]
  simp only [View.ld_unit_zero (S := S5000x256) zeroOffsets0, View.ld_unit_zero (S := S256x128) zeroOffsets0]
  rw [pay0_eq]
  obtain ⟨-, -, -, -, e4, e5⟩ := idx_facts0 t
  funext j
  obtain ⟨p, q, rfl⟩ : ∃ (p : Fin 5000) (q : Fin 128), j = ix2 p q := ⟨j 0, j 1, eq_ix2 j⟩
  show mm (iblk0 V c 0 t : FVec Ideal S5000x256 .f32) (iblk0 V c 1 t : FVec Ideal S256x128 .f32) (ix2 p q)
    = mm (V c main_arg0 : FVec Ideal S100000x256 .f32) (V c main_arg2 : FVec Ideal S256x128 .f32) (((cfg0.win 2).blk t).view.emb (ix2 p q))
  refine Cert.MatrixProduct.mm_of_row_col _ _ _ _ (ix2 p q) _ (fun k => ?_) (fun k => ?_)
  · refine rows0_apply V c t p k _ ?_
    show win0_2.index t (0 : Fin 2) * 5000 + 1 * p.val = t.val * 5000 + p.val
    omega
  · refine weights0_apply V c t k q _ ?_
    show win0_2.index t (1 : Fin 2) * 128 + 1 * q.val = q.val
    omega

/-! ## The tiles cover the array -/

/-- An index of the output array is in point `t`'s tile iff each coordinate is in the tile's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the tile of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]
    omega

/-! ## The array after the region -/

/-- After the region the output array is the product of the two input arrays as the region found them. -/
theorem final0 (c : Dev nD) :
    (dat0 (F := Ideal) V c).arrAt 2 cfg0.N = mm (V c main_arg0 : FVec Ideal S100000x256 .f32) (V c main_arg2 : FVec Ideal S256x128 .f32) :=
  (dat0 (F := Ideal) V c).arrAt_eq_of_cover 2 _ (fun t _ => flushed0_eq V c t) cover0

end Cert.KernelIdeal.HandValue

end
-- ==== Proof.Spec.lean ====
/-
  The two pointwise stages of the layer, as whole-array functions over the extended reals, spelt with the reference
  program's own operations.

  `mixOf z b a₀ a₁ a₂ a₃` is the gated mix of a layer's pre-activation: with y = z + b (the bias b added to every row),
  g(y) = a₀·y where y < 0, a₁·y where 0 ≤ y < a₂, a₃·y elsewhere, the result is ½·y + ½·g(y).
  `biasOf z b` is the last layer's output, 1·(z + b), the bias added to every row.
  Both are stated for arbitrary arrays: nothing here is about one program's buffers.
-/
import proofs.«128814_j14697378087207_1_alg».proof.Proof.Gen.ReferenceIdeal
import Idealize.ShloMosaic.PureOps.Ideal

noncomputable section

namespace Cert.Spec

open Idealize.ShloMosaic Cert.ReferenceIdeal Cert.ReferenceIdeal.Gen

/-- The gated mix ½·y + ½·g(y) of y = z + b, row by row, with the four gate coefficients given as scalars. -/
def mixOf (z : FVec Ideal S100000x128 .f32) (b : FVec Ideal S128 .f32) (a0 a1 a2 a3 : FVec Ideal S_ .f32) :
    FVec Ideal S100000x128 .f32 :=
  let y : FVec Ideal S100000x128 .f32 :=
    addf z (broadcastInDim S100000x128 ![0, 1] bcast_S1x128_S100000x128_0_1 (broadcastInDim S1x128 ![1] bcast_S128_S1x128_1 b))
  addf
    (mulf (broadcastInDim S100000x128 ![] bcast_S_S100000x128 (constant (F := Ideal) S_ .f32 0x3F000000#32)) y)
    (mulf (broadcastInDim S100000x128 ![] bcast_S_S100000x128 (constant (F := Ideal) S_ .f32 0x3F000000#32))
      (select (cmpf (F := Ideal) .olt y (broadcastInDim S100000x128 ![] bcast_S_S100000x128 (constant (F := Ideal) S_ .f32 0x00000000#32)))
        (mulf (broadcastInDim S100000x128 ![] bcast_S_S100000x128 a0) y)
        (select (cmpf (F := Ideal) .olt y (broadcastInDim S100000x128 ![] bcast_S_S100000x128 a2))
          (mulf (broadcastInDim S100000x128 ![] bcast_S_S100000x128 a1) y)
          (mulf (broadcastInDim S100000x128 ![] bcast_S_S100000x128 a3) y))))

/-- The output layer 1·(z + b), the bias added to every row. -/
def biasOf (z : FVec Ideal S100000x64 .f32) (b : FVec Ideal S64 .f32) : FVec Ideal S100000x64 .f32 :=
  mulf (broadcastInDim S100000x64 ![] bcast_S_S100000x64 (constant (F := Ideal) S_ .f32 0x3F800000#32))
    (addf z (broadcastInDim S100000x64 ![0, 1] bcast_S1x64_S100000x64_0_1 (broadcastInDim S1x64 ![1] bcast_S64_S1x64_1 b)))

end Cert.Spec

end
-- ==== Proof.IdealValue1.lean ====
import proofs.«128814_j14697378087207_1_alg».proof.Proof.IdealRegion1
import proofs.«128814_j14697378087207_1_alg».proof.Proof.Spec
import Idealize.ShloMosaic.Lib.Pipeline.Value
import Idealize.ShloMosaic.Lib.ValueLayout
import Idealize.ShloMosaic.Lib.IdealHost
import Idealize.ShloMosaic.Lib.Tactic

noncomputable section

namespace Cert.KernelIdeal.HandValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

/-! # The value of region 1: the gated mix of every row of the input array plus the bias row -/

theorem zero_off1 : (![0, 0] : Fin 2 → Nat) = fun _ => 0 := funext fun a => by fin_cases a <;> rfl

/-! ## The arithmetic at one entry -/

/-- The gated mix of one pre-activation `y`: half of `y` plus half of `g y`, where `g y` is `a0 y` for negative `y`,
    `a1 y` for `y` below `a2`, and `a3 y` otherwise. -/
def mixAt (y a0 a1 a2 a3 : Ideal .f32) : Ideal .f32 :=
  Ideal.ofBits .f32 0x3F000000#32 * y + Ideal.ofBits .f32 0x3F000000#32 *
    Scalar.select (FloatOps.cmpf .olt y (Ideal.ofBits .f32 0x00000000#32)) (a0 * y)
      (Scalar.select (FloatOps.cmpf .olt y a2) (a1 * y) (a3 * y))

/-- Entry `k` of the coefficient row, as the body extracts it. -/
theorem coef1_apply (x0 : S1x4.Idx → Ideal .f32) (k : Fin 4) (hs : S1x4.Slices ![0, k.val] S1x1) (hp : ∀ a, (![0, 0] : Fin 2 → Nat) a < S1x1.size a) :
    extractAt ![0, 0] (extractStridedSlice S1x1 ![0, k.val] x0 hs) hp = x0 (ix2 (0 : Fin 1) k) := by
  unfold extractAt
  refine extractStridedSlice_apply _ _ _ _ _ fun ax => ?_
  match ax with
  | ⟨0, _⟩ => rfl
  | ⟨1, _⟩ => show k.val = k.val + 0; omega

/-- The stored block at row `p`, column `a`: the gated mix of the row block's entry plus the bias row's entry of that
    column, with the coefficient row's four entries. -/
theorem pay1_apply (x0 : Vec Ideal S1x4 .f32) (x1 : Vec Ideal S5000x128 .f32) (x2 : Vec Ideal S1x128 .f32) (p : Fin 5000) (a : Fin 128) :
    k1_pay1 x0 x1 x2 (ix2 p a) = mixAt (x1 (ix2 p a) + x2 (ix2 (0 : Fin 1) a))
      (x0 (ix2 (0 : Fin 1) (0 : Fin 4))) (x0 (ix2 (0 : Fin 1) (1 : Fin 4))) (x0 (ix2 (0 : Fin 1) (2 : Fin 4))) (x0 (ix2 (0 : Fin 1) (3 : Fin 4))) := by
  have c0 : extractAt ![0, 0] (extractStridedSlice S1x1 ![0, 0] x0 slices_S1x4_o0_0_S1x1) inpos_S1x1_p0_0 = x0 (ix2 (0 : Fin 1) (0 : Fin 4)) :=
    coef1_apply x0 0 slices_S1x4_o0_0_S1x1 inpos_S1x1_p0_0
  have c1 : extractAt ![0, 0] (extractStridedSlice S1x1 ![0, 1] x0 slices_S1x4_o0_1_S1x1) inpos_S1x1_p0_0 = x0 (ix2 (0 : Fin 1) (1 : Fin 4)) :=
    coef1_apply x0 1 slices_S1x4_o0_1_S1x1 inpos_S1x1_p0_0
  have c2 : extractAt ![0, 0] (extractStridedSlice S1x1 ![0, 2] x0 slices_S1x4_o0_2_S1x1) inpos_S1x1_p0_0 = x0 (ix2 (0 : Fin 1) (2 : Fin 4)) :=
    coef1_apply x0 2 slices_S1x4_o0_2_S1x1 inpos_S1x1_p0_0
  have c3 : extractAt ![0, 0] (extractStridedSlice S1x1 ![0, 3] x0 slices_S1x4_o0_3_S1x1) inpos_S1x1_p0_0 = x0 (ix2 (0 : Fin 1) (3 : Fin 4)) :=
    coef1_apply x0 3 slices_S1x4_o0_3_S1x1 inpos_S1x1_p0_0
  unfold k1_pay1 mixAt
  simp only [addf_apply, mulf_apply, select_apply, cmpf_apply, broadcast_apply, shapeCast_self, broadcastTo_1b_ab_apply, Ideal.ofBits_def]
  rw [c0, c1, c2, c3]

/-- The bias vector carried to a row and then to every row, read at row `r`, column `a`. -/
theorem rows1_apply (b : FVec Ideal S128 .f32) (h1 : S128.BroadcastsInDim S1x128 ![1]) (h2 : S1x128.BroadcastsInDim S100000x128 ![0, 1])
    (r : Fin 100000) (a : Fin 128) :
    broadcastInDim S100000x128 ![0, 1] h2 (broadcastInDim S1x128 ![1] h1 b) (ix2 r a) = b (ix1 a) := by
  refine (broadcastInDim_apply _ _ _ (ix2 r a) (ix2 (0 : Fin 1) a) fun ax => ?_).trans ?_
  · match ax with
    | ⟨0, _⟩ => rfl
    | ⟨1, _⟩ => rfl
  · refine broadcastInDim_apply _ _ _ (ix2 (0 : Fin 1) a) (ix1 a) fun ax => ?_
    match ax with
    | ⟨0, _⟩ => rfl

/-- The whole-array function at row `r`, column `a`: the gated mix of the array's entry plus the bias vector's entry of
    that column, with the four scalar coefficients. -/
theorem mixOf_apply (z : FVec Ideal S100000x128 .f32) (b : FVec Ideal S128 .f32) (a0 a1 a2 a3 : FVec Ideal S_ .f32) (r : Fin 100000) (a : Fin 128) :
    Cert.Spec.mixOf z b a0 a1 a2 a3 (ix2 r a) = mixAt (z (ix2 r a) + b (ix1 a)) (a0 ix0) (a1 ix0) (a2 ix0) (a3 ix0) := by
  have hr : broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r a) = b (ix1 a) :=
    rows1_apply b _ _ r a
  have hs : ∀ x : FVec Ideal Cert.ReferenceIdeal.S_ .f32,
      broadcastInDim Cert.ReferenceIdeal.S100000x128 ![] Cert.ReferenceIdeal.Gen.bcast_S_S100000x128 x (ix2 r a) = x ix0 :=
    fun x => broadcastInDim_scalar_apply _ x _
  unfold Cert.Spec.mixOf mixAt
  simp only [addf_apply, mulf_apply, select_apply, cmpf_apply]
  rw [hr, hs, hs a0, hs a1, hs a2, hs a3, hs]
  rfl

/-! ## Where the blocks sit -/

/-- The printed index maps over the grid: the row block and the output move with the point; the coefficient row and the
    bias row stay. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) (p : Fin 5000) : 5000 * t.val + p.val < 100000 := by
  have h : t.val < 20 := lt_of_lt_of_eq t.isLt N_1
  have := p.isLt
  omega

/-- Row `p` of the output's block at point `t` is row `5000 t + p` of the array. -/
theorem emb1_3 (t : Fin cfg1.N) (p : Fin 5000) (a : Fin 128) :
    ((cfg1.win 3).blk t).view.emb (ix2 p a) = (ix2 (⟨5000 * t.val + p.val, lt1 t p⟩ : Fin 100000) a : S100000x128.Idx) := by
  obtain ⟨e0, e1, e2, e3, e4, e5, e6, e7⟩ := idx1 t
  funext ax; apply Fin.ext
  match ax with
  | ⟨0, _⟩ => show win1_3.index t (0 : Fin 2) * 5000 + 1 * p.val = 5000 * t.val + p.val; rw [e6]; omega
  | ⟨1, _⟩ => show win1_3.index t (1 : Fin 2) * 128 + 1 * a.val = a.val; rw [e7]; omega

/-- The coefficient window's block at every point is the coefficient row itself. -/
theorem iblk1_0_apply (c : Dev nD) (t : Fin cfg1.N) (k : Fin 4) :
    (iblk1 V c 0 t : Vec Ideal S1x4 .f32) (ix2 (0 : Fin 1) k) = (V c main_v50 : S1x4.Idx → Elt Ideal .f32) (ix2 (0 : Fin 1) k) := by
  obtain ⟨e0, e1, e2, e3, e4, e5, e6, e7⟩ := idx1 t
  unfold iblk1
  rw [View.read_apply]
  show V c main_v50 _ = V c main_v50 _
  refine congrArg (V c main_v50) ?_
  funext ax; apply Fin.ext
  match ax with
  | ⟨0, _⟩ => show win1_0.index t (0 : Fin 2) * 1 + 1 * (0 : Fin 1).val = (0 : Fin 1).val; rw [e0]; rfl
  | ⟨1, _⟩ => show win1_0.index t (1 : Fin 2) * 4 + 1 * k.val = k.val; rw [e1]; omega

/-- Row `p` of the input's block at point `t` is row `5000 t + p` of the input array. -/
theorem iblk1_1_apply (c : Dev nD) (t : Fin cfg1.N) (p : Fin 5000) (a : Fin 128) :
    (iblk1 V c 1 t : Vec Ideal S5000x128 .f32) (ix2 p a) = (V c main_v43 : S100000x128.Idx → Elt Ideal .f32) (ix2 (⟨5000 * t.val + p.val, lt1 t p⟩ : Fin 100000) a) := by
  obtain ⟨e0, e1, e2, e3, e4, e5, e6, e7⟩ := idx1 t
  unfold iblk1
  rw [View.read_apply]
  show V c main_v43 _ = V c main_v43 _
  refine congrArg (V c main_v43) ?_
  funext ax; apply Fin.ext
  match ax with
  | ⟨0, _⟩ => show win1_1.index t (0 : Fin 2) * 5000 + 1 * p.val = 5000 * t.val + p.val; rw [e2]; omega
  | ⟨1, _⟩ => show win1_1.index t (1 : Fin 2) * 128 + 1 * a.val = a.val; rw [e3]; omega

/-- The bias window's block at every point is the bias row itself. -/
theorem iblk1_2_apply (c : Dev nD) (t : Fin cfg1.N) (a : Fin 128) :
    (iblk1 V c 2 t : Vec Ideal S1x128 .f32) (ix2 (0 : Fin 1) a) = (V c main_v49 : S1x128.Idx → Elt Ideal .f32) (ix2 (0 : Fin 1) a) := by
  obtain ⟨e0, e1, e2, e3, e4, e5, e6, e7⟩ := idx1 t
  unfold iblk1
  rw [View.read_apply]
  show V c main_v49 _ = V c main_v49 _
  refine congrArg (V c main_v49) ?_
  funext ax; apply Fin.ext
  match ax with
  | ⟨0, _⟩ => show win1_2.index t (0 : Fin 2) * 1 + 1 * (0 : Fin 1).val = (0 : Fin 1).val; rw [e4]; rfl
  | ⟨1, _⟩ => show win1_2.index t (1 : Fin 2) * 128 + 1 * a.val = a.val; rw [e5]; omega

/-! ## What a point writes back, and the array after the region -/

/-- What point `t` writes back is block `t` of the whole-array function of the region's input arrays. -/
theorem flushed1_eq (c : Dev nD) (b : FVec Ideal S128 .f32) (a0 a1 a2 a3 : FVec Ideal S_ .f32)
    (hb : ∀ a : Fin 128, V c main_v49 (ix2 (0 : Fin 1) a) = b (ix1 a))
    (h0 : V c main_v50 (ix2 (0 : Fin 1) (0 : Fin 4)) = a0 ix0) (h1 : V c main_v50 (ix2 (0 : Fin 1) (1 : Fin 4)) = a1 ix0)
    (h2 : V c main_v50 (ix2 (0 : Fin 1) (2 : Fin 4)) = a2 ix0) (h3 : V c main_v50 (ix2 (0 : Fin 1) (3 : Fin 4)) = a3 ix0)
    (t : Fin cfg1.N) :
    (dat1 (F := Ideal) V c).flushed 3 t = ((cfg1.win 3).blk t).view.read (Elt Ideal) (Cert.Spec.mixOf (V c main_v43) b a0 a1 a2 a3) := by
  show (cfg1.win 3).cut (grid1.coords t) ((dat1 V c).after 3 t) = _
  rw [after1_3]
  unfold out1_3
  rw [View.canon_unit_zero zero_off1]
  simp only [View.ld_unit_zero (S := S1x4) zero_off1, View.ld_unit_zero (S := S5000x128) zero_off1, View.ld_unit_zero (S := S1x128) zero_off1]
  funext j
  obtain ⟨p, a, rfl⟩ : ∃ (p : Fin 5000) (a : Fin 128), j = ix2 p a := ⟨j 0, j 1, eq_ix2 j⟩
  show k1_pay1 (iblk1 V c 0 t) (iblk1 V c 1 t) (iblk1 V c 2 t) (ix2 p a) = Cert.Spec.mixOf (V c main_v43) b a0 a1 a2 a3 (((cfg1.win 3).blk t).view.emb (ix2 p a))
  rw [emb1_3 t p a, mixOf_apply]
  refine (pay1_apply _ _ _ p a).trans ?_
  rw [iblk1_0_apply V c t 0, iblk1_0_apply V c t 1, iblk1_0_apply V c t 2, iblk1_0_apply V c t 3,
    iblk1_1_apply V c t p a, iblk1_2_apply V c t a, hb a, h0, h1, h2, h3]

/-- Every row of the output array lies in the block of the point its number divided by 5000 names. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6, e7⟩ := idx1 t
  have ht : t.val = (i 0).val / 5000 := rfl
  refine ⟨t, flush1_3 t, ?_⟩
  show i ∈ ((View.whole main_v51).slice (win1_3.rect t)).set
  rw [View.set_slice_whole, Rect.mem_set_unit]
  intro ax
  match ax with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- The output array after the region: the gated mix of every row of the input array plus the bias vector. -/
theorem final1 (c : Dev nD) (b : FVec Ideal S128 .f32) (a0 a1 a2 a3 : FVec Ideal S_ .f32)
    (hb : ∀ a : Fin 128, V c main_v49 (ix2 (0 : Fin 1) a) = b (ix1 a))
    (h0 : V c main_v50 (ix2 (0 : Fin 1) (0 : Fin 4)) = a0 ix0) (h1 : V c main_v50 (ix2 (0 : Fin 1) (1 : Fin 4)) = a1 ix0)
    (h2 : V c main_v50 (ix2 (0 : Fin 1) (2 : Fin 4)) = a2 ix0) (h3 : V c main_v50 (ix2 (0 : Fin 1) (3 : Fin 4)) = a3 ix0) :
    (dat1 (F := Ideal) V c).arrAt 3 cfg1.N = Cert.Spec.mixOf (V c main_v43) b a0 a1 a2 a3 :=
  (dat1 V c).arrAt_eq_of_cover 3 (Cert.Spec.mixOf (V c main_v43) b a0 a1 a2 a3)
    (fun t _ => flushed1_eq V c b a0 a1 a2 a3 hb h0 h1 h2 h3 t) cover1

end Cert.KernelIdeal.HandValue

end
-- ==== Proof.IdealValue2.lean ====
import proofs.«128814_j14697378087207_1_alg».proof.Proof.IdealRegion2
import proofs.«128814_j14697378087207_1_alg».proof.Proof.LibMatrixProduct
import Idealize.ShloMosaic.Lib.Pipeline.Value

/-! # Region 2 at the exact extended reals: the output array is the matrix product

The pipeline writes the output array tile by tile: point `t` writes rows `5000 t … 5000 t + 4999`, holding the
product of those rows of the left factor by the whole right factor. Rounding the operands to a narrower format is the
identity at the exact extended reals and the accumulator starts at zero, so each tile is a row block of the
product of the two whole arrays; the twenty tiles cover all 100000 rows, so the array ends as that product. -/

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open Cert.MatrixProduct (mm)

variable (V : (c : Dev nD) → (b : Ref sig .tc) → Buf (Elt Ideal) ((c : Thread nD τ).loc b))

/-- The body's loads and its store start at offset (0, 0). -/
theorem zeroOffsets2 : (![0, 0] : Fin 2 → Nat) = fun _ => 0 := funext fun a => by fin_cases a <;> rfl

/-! ## A tile's payload is the product of its two loaded blocks -/

/-- Recasting a block to its own shape and narrowing to bf16 change nothing at the exact extended reals, and the
    product accumulates from zero. -/
theorem pay2_eq (x0 : FVec Ideal S5000x128 .f32) (x1 : FVec Ideal S128x64 .f32) :
    k2_pay1 (F := Ideal) x0 x1 = mm x0 x1 := by
  unfold k2_pay1
  refine (Cert.MatrixProduct.matmul_zero_eq_mm dot_S5000x128_S128x64_S5000x64_1_0_0_1_n_n_wf none
    (truncf .bf16 (shapeCast S5000x128 x0 shapeCasts_S5000x128_S5000x128) bitsLt_bf16_f32) (truncf .bf16 x1 bitsLt_bf16_f32)).trans ?_
  rw [shapeCast_self]
  rfl

/-! ## Where the blocks sit in their arrays -/

/-- The block indices at point `t`: the row tiles of the left factor and of the output are tile `t`; the right
    factor's one block is the whole array. Decided over the twenty points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left factor's block at point `t` is row `5000 t + p` of the array. -/
theorem rows2_apply (c : Dev nD) (t : Fin cfg2.N) (p : Fin 5000) (k : Fin 128) (r : Fin 100000)
    (hr : r.val = t.val * 5000 + p.val) :
    (iblk2 V c 0 t : FVec Ideal S5000x128 .f32) (ix2 p k) = (V c main_v51 : FVec Ideal S100000x128 .f32) (ix2 r k) := by
  obtain ⟨e0, e1, -⟩ := idx_facts2 t
  show V c main_v51 (((cfg2.win 0).blk t).view.emb (ix2 p k)) = V c main_v51 (ix2 r k)
  refine congrArg (V c main_v51) ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The right factor's block at any point is the whole array. -/
theorem weights2_apply (c : Dev nD) (t : Fin cfg2.N) (k : Fin 128) (q q' : Fin 64) (hq : q'.val = q.val) :
    (iblk2 V c 1 t : FVec Ideal S128x64 .f32) (ix2 k q) = (V c main_arg8 : FVec Ideal S128x64 .f32) (ix2 k q') := by
  obtain ⟨-, -, e2, e3, -⟩ := idx_facts2 t
  show V c main_arg8 (((cfg2.win 1).blk t).view.emb (ix2 k q)) = V c main_arg8 (ix2 k q')
  refine congrArg (V c main_arg8) ?_
  funext a; apply Fin.ext
  match a with
  | ⟨0, _⟩ => show win2_1.index t (0 : Fin 2) * 128 + 1 * k.val = k.val; omega
  | ⟨1, _⟩ => show win2_1.index t (1 : Fin 2) * 64 + 1 * q.val = q'.val; omega

/-! ## What a point writes back -/

/-- Point `t` writes back block `t` of the product of the two arrays as the region finds them. -/
theorem flushed2_eq (c : Dev nD) (t : Fin cfg2.N) :
    (dat2 (F := Ideal) V c).flushed 2 t
      = ((cfg2.win 2).blk t).view.read (Elt Ideal) (mm (V c main_v51 : FVec Ideal S100000x128 .f32) (V c main_arg8 : FVec Ideal S128x64 .f32)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x64) zeroOffsets2]
  rw [pay2_eq]
  obtain ⟨-, -, -, -, e4, e5⟩ := idx_facts2 t
  funext j
  obtain ⟨p, q, rfl⟩ : ∃ (p : Fin 5000) (q : Fin 64), j = ix2 p q := ⟨j 0, j 1, eq_ix2 j⟩
  show mm (iblk2 V c 0 t : FVec Ideal S5000x128 .f32) (iblk2 V c 1 t : FVec Ideal S128x64 .f32) (ix2 p q)
    = mm (V c main_v51 : FVec Ideal S100000x128 .f32) (V c main_arg8 : FVec Ideal S128x64 .f32) (((cfg2.win 2).blk t).view.emb (ix2 p q))
  refine Cert.MatrixProduct.mm_of_row_col _ _ _ _ (ix2 p q) _ (fun k => ?_) (fun k => ?_)
  · refine rows2_apply V c t p k _ ?_
    show win2_2.index t (0 : Fin 2) * 5000 + 1 * p.val = t.val * 5000 + p.val
    omega
  · refine weights2_apply V c t k q _ ?_
    show win2_2.index t (1 : Fin 2) * 64 + 1 * q.val = q.val
    omega

/-! ## The tiles cover the array -/

/-- An index of the output array is in point `t`'s tile iff each coordinate is in the tile's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v52).slice (win2_2.rect t)).set ↔ _
  rw [View.set_slice_whole, Rect.mem_set_unit]
  exact Iff.rfl

/-- Row `r` lies in the tile of point `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]
    omega

/-! ## The array after the region -/

/-- After the region the output array is the product of the two input arrays as the region found them. -/
theorem final2 (c : Dev nD) :
    (dat2 (F := Ideal) V c).arrAt 2 cfg2.N = mm (V c main_v51 : FVec Ideal S100000x128 .f32) (V c main_arg8 : FVec Ideal S128x64 .f32) :=
  (dat2 (F := Ideal) V c).arrAt_eq_of_cover 2 _ (fun t _ => flushed2_eq V c t) cover2

end Cert.KernelIdeal.HandValue

end
-- ==== Proof.IdealValue3.lean ====
import proofs.«128814_j14697378087207_1_alg».proof.Proof.IdealRegion3
import proofs.«128814_j14697378087207_1_alg».proof.Proof.Spec
import Idealize.ShloMosaic.Lib.Pipeline.Value
import Idealize.ShloMosaic.Lib.ValueLayout
import Idealize.ShloMosaic.Lib.IdealHost
import Idealize.ShloMosaic.Lib.Tactic

noncomputable section

namespace Cert.KernelIdeal.HandValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

/-! # The value of region 3: every row of the input array plus the bias row -/

theorem zero_off3 : (![0, 0] : Fin 2 → Nat) = fun _ => 0 := funext fun a => by fin_cases a <;> rfl

/-! ## The body's arithmetic at an index -/

/-- The stored block at row `p`, column `a`: the row block's entry plus the bias row's entry of that column. -/
theorem pay3_apply (x0 : Vec Ideal S5000x64 .f32) (x1 : Vec Ideal S1x64 .f32) (p : Fin 5000) (a : Fin 64) :
    k3_pay1 x0 x1 (ix2 p a) = x0 (ix2 p a) + x1 (ix2 (0 : Fin 1) a) := by
  unfold k3_pay1
  refine (addf_apply _ _ _).trans ?_
  rw [shapeCast_self, shapeCast_self, broadcastTo_1b_ab_apply]

/-- The whole-array function at row `r`, column `a`: the array's entry plus the bias vector's entry of that column
    (the factor is the real one). -/
theorem biasOf_apply (z : FVec Ideal S100000x64 .f32) (b : FVec Ideal S64 .f32) (r : Fin 100000) (a : Fin 64) :
    Cert.Spec.biasOf z b (ix2 r a) = z (ix2 r a) + b (ix1 a) := by
  unfold Cert.Spec.biasOf
  rw [mulf_apply, broadcastInDim_scalar_apply, constant_apply, Ideal.ofBits_one_f32, one_mul, addf_apply]
  refine congrArg (z (ix2 r a) + ·) ?_
  refine (broadcastInDim_apply _ _ _ (ix2 r a) (ix2 (0 : Fin 1) a) fun ax => ?_).trans ?_
  · match ax with
    | ⟨0, _⟩ => rfl
    | ⟨1, _⟩ => rfl
  · refine broadcastInDim_apply _ _ _ (ix2 (0 : Fin 1) a) (ix1 a) fun ax => ?_
    match ax with
    | ⟨0, _⟩ => rfl

/-! ## Where the blocks sit -/

/-- The printed index maps over the grid: the row block and the output move with the point, the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) (p : Fin 5000) : 5000 * t.val + p.val < 100000 := by
  have h : t.val < 20 := lt_of_lt_of_eq t.isLt N_3
  have := p.isLt
  omega

/-- Row `p` of the output's block at point `t` is row `5000 t + p` of the array. -/
theorem emb3_2 (t : Fin cfg3.N) (p : Fin 5000) (a : Fin 64) :
    ((cfg3.win 2).blk t).view.emb (ix2 p a) = (ix2 (⟨5000 * t.val + p.val, lt3 t p⟩ : Fin 100000) a : S100000x64.Idx) := by
  obtain ⟨e0, e1, e2, e3, e4, e5⟩ := idx3 t
  funext ax; apply Fin.ext
  match ax with
  | ⟨0, _⟩ => show win3_2.index t (0 : Fin 2) * 5000 + 1 * p.val = 5000 * t.val + p.val; rw [e4]; omega
  | ⟨1, _⟩ => show win3_2.index t (1 : Fin 2) * 64 + 1 * a.val = a.val; rw [e5]; omega

/-- Row `p` of the input's block at point `t` is row `5000 t + p` of the input array. -/
theorem iblk3_0_apply (c : Dev nD) (t : Fin cfg3.N) (p : Fin 5000) (a : Fin 64) :
    (iblk3 V c 0 t : Vec Ideal S5000x64 .f32) (ix2 p a) = (V c main_v65 : S100000x64.Idx → Elt Ideal .f32) (ix2 (⟨5000 * t.val + p.val, lt3 t p⟩ : Fin 100000) a) := by
  obtain ⟨e0, e1, e2, e3, e4, e5⟩ := idx3 t
  unfold iblk3
  rw [View.read_apply]
  show V c main_v65 _ = V c main_v65 _
  refine congrArg (V c main_v65) ?_
  funext ax; apply Fin.ext
  match ax with
  | ⟨0, _⟩ => show win3_0.index t (0 : Fin 2) * 5000 + 1 * p.val = 5000 * t.val + p.val; rw [e0]; omega
  | ⟨1, _⟩ => show win3_0.index t (1 : Fin 2) * 64 + 1 * a.val = a.val; rw [e1]; omega

/-- The bias window's block at every point is the bias row itself. -/
theorem iblk3_1_apply (c : Dev nD) (t : Fin cfg3.N) (a : Fin 64) :
    (iblk3 V c 1 t : Vec Ideal S1x64 .f32) (ix2 (0 : Fin 1) a) = (V c main_v66 : S1x64.Idx → Elt Ideal .f32) (ix2 (0 : Fin 1) a) := by
  obtain ⟨e0, e1, e2, e3, e4, e5⟩ := idx3 t
  unfold iblk3
  rw [View.read_apply]
  show V c main_v66 _ = V c main_v66 _
  refine congrArg (V c main_v66) ?_
  funext ax; apply Fin.ext
  match ax with
  | ⟨0, _⟩ => show win3_1.index t (0 : Fin 2) * 1 + 1 * (0 : Fin 1).val = (0 : Fin 1).val; rw [e2]; rfl
  | ⟨1, _⟩ => show win3_1.index t (1 : Fin 2) * 64 + 1 * a.val = a.val; rw [e3]; omega

/-! ## What a point writes back, and the array after the region -/

/-- What point `t` writes back is block `t` of the whole-array function of the region's input arrays. -/
theorem flushed3_eq (c : Dev nD) (b : FVec Ideal S64 .f32) (hb : ∀ a : Fin 64, V c main_v66 (ix2 (0 : Fin 1) a) = b (ix1 a))
    (t : Fin cfg3.N) :
    (dat3 (F := Ideal) V c).flushed 2 t = ((cfg3.win 2).blk t).view.read (Elt Ideal) (Cert.Spec.biasOf (V c main_v65) b) := by
  show (cfg3.win 2).cut (grid3.coords t) ((dat3 V c).after 2 t) = _
  rw [after3_2]
  unfold out3_2
  rw [View.canon_unit_zero zero_off3]
  simp only [View.ld_unit_zero (S := S5000x64) zero_off3, View.ld_unit_zero (S := S1x64) zero_off3]
  funext j
  obtain ⟨p, a, rfl⟩ : ∃ (p : Fin 5000) (a : Fin 64), j = ix2 p a := ⟨j 0, j 1, eq_ix2 j⟩
  show k3_pay1 (iblk3 V c 0 t) (iblk3 V c 1 t) (ix2 p a) = Cert.Spec.biasOf (V c main_v65) b (((cfg3.win 2).blk t).view.emb (ix2 p a))
  rw [emb3_2 t p a, biasOf_apply]
  refine (pay3_apply _ _ p a).trans ?_
  rw [iblk3_0_apply V c t p a, iblk3_1_apply V c t a, hb a]

/-- Every row of the output array lies in the block of the point its number divided by 5000 names. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5⟩ := idx3 t
  have ht : t.val = (i 0).val / 5000 := rfl
  refine ⟨t, flush3_2 t, ?_⟩
  show i ∈ ((View.whole main_v67).slice (win3_2.rect t)).set
  rw [View.set_slice_whole, Rect.mem_set_unit]
  intro ax
  match ax with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- The output array after the region: every row of the input array plus the bias vector. -/
theorem final3 (c : Dev nD) (b : FVec Ideal S64 .f32) (hb : ∀ a : Fin 64, V c main_v66 (ix2 (0 : Fin 1) a) = b (ix1 a)) :
    (dat3 (F := Ideal) V c).arrAt 2 cfg3.N = Cert.Spec.biasOf (V c main_v65) b :=
  (dat3 V c).arrAt_eq_of_cover 2 (Cert.Spec.biasOf (V c main_v65) b) (fun t _ => flushed3_eq V c b hb t) cover3

end Cert.KernelIdeal.HandValue

end
-- ==== Proof.Aggregate.lean ====
/-
  The graph side of the layer, as whole-array functions over the extended reals, spelt with the reference program's own
  operations: from the edge list `e` (two rows of node numbers), the source and destination vectors with one self-loop
  per node appended, the in-degree of every node (a sum of ones scattered to the destinations), its inverse square root
  where positive and zero elsewhere, the edge weight (the product of the two endpoints' factors), and the aggregation of
  a feature matrix `h`: row `d` of the result is the sum over the edges into `d` of the edge's weight times row
  `source` of `h`. A negative node number is read from the end, as the host's indexing does.
  `valueOf` composes them into the whole network: aggregate(x·W₁), the gated mix, aggregate(·W₂), the bias.
-/
import proofs.«128814_j14697378087207_1_alg».proof.Proof.Spec

noncomputable section

namespace Cert.Spec

open Idealize.ShloMosaic Cert.ReferenceIdeal Cert.ReferenceIdeal.Gen

/-- The edges' source nodes, then every node once (its self-loop). -/
def srcOf (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The edges' destination nodes, then every node once (its self-loop). -/
def dstOf (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- Every node's in-degree, self-loop included: ones summed at the destinations. -/
def degOf (e : IVec S2x1600000 32) : FVec Ideal S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 (dstOf e)) (broadcastInDim S1700000 ![] bcast_S_S1700000 (constant S_ .f32 0x3F800000#32)))

/-- deg^(-1/2) where the degree is positive, zero elsewhere. -/
def dinvOf (e : IVec S2x1600000 32) : FVec Ideal S100000 .f32 :=
  (select (cmpf (F := Ideal) .ogt (degOf e) (broadcastInDim S100000 ![] bcast_S_S100000 (constant S_ .f32 0x00000000#32))) (Host.rsqrt (degOf e)) (broadcastInDim S100000 ![] bcast_S_S100000 (id (constant S_ .f32 0x00000000#32))))

/-- An edge's weight: the product of its two endpoints' factors. -/
def normOf (e : IVec S2x1600000 32) : FVec Ideal S1700000 .f32 :=
  (mulf (Host.gather gather_S100000_S1700000x1_S1700000_n_0_n_n_0_1_1 (dinvOf e) (broadcastInDim S1700000x1 ![0] bcast_S1700000_S1700000x1_0 (select (cmpi .slt (srcOf e) (broadcastInDim S1700000 ![] bcast_S_S1700000 (constantI S_ 32 0#32))) (addi (srcOf e) (broadcastInDim S1700000 ![] bcast_S_S1700000 (constantI S_ 32 100000#32))) (srcOf e)))) (Host.gather gather_S100000_S1700000x1_S1700000_n_0_n_n_0_1_1 (dinvOf e) (broadcastInDim S1700000x1 ![0] bcast_S1700000_S1700000x1_0 (select (cmpi .slt (dstOf e) (broadcastInDim S1700000 ![] bcast_S_S1700000 (constantI S_ 32 0#32))) (addi (dstOf e) (broadcastInDim S1700000 ![] bcast_S_S1700000 (constantI S_ 32 100000#32))) (dstOf e)))))

/-- The weighted aggregation of a 128-column feature matrix over the edges. -/
def agg128 (e : IVec S2x1600000 32) (h : FVec Ideal S100000x128 .f32) : FVec Ideal S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstOf e)) (mulf (broadcastInDim S1700000x128 ![0, 1] bcast_S1700000x1_S1700000x128_0_1 (broadcastInDim S1700000x1 ![0] bcast_S1700000_S1700000x1_0 (normOf e))) (Host.gather gather_S100000x128_S1700000x1_S1700000x128_1_0_n_n_0_1_1128 h (broadcastInDim S1700000x1 ![0] bcast_S1700000_S1700000x1_0 (select (cmpi .slt (srcOf e) (broadcastInDim S1700000 ![] bcast_S_S1700000 (constantI S_ 32 0#32))) (addi (srcOf e) (broadcastInDim S1700000 ![] bcast_S_S1700000 (constantI S_ 32 100000#32))) (srcOf e))))))

/-- The weighted aggregation of a 64-column feature matrix over the edges. -/
def agg64 (e : IVec S2x1600000 32) (h : FVec Ideal S100000x64 .f32) : FVec Ideal S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstOf e)) (mulf (broadcastInDim S1700000x64 ![0, 1] bcast_S1700000x1_S1700000x64_0_1 (broadcastInDim S1700000x1 ![0] bcast_S1700000_S1700000x1_0 (normOf e))) (Host.gather gather_S100000x64_S1700000x1_S1700000x64_1_0_n_n_0_1_164 h (broadcastInDim S1700000x1 ![0] bcast_S1700000_S1700000x1_0 (select (cmpi .slt (srcOf e) (broadcastInDim S1700000 ![] bcast_S_S1700000 (constantI S_ 32 0#32))) (addi (srcOf e) (broadcastInDim S1700000 ![] bcast_S_S1700000 (constantI S_ 32 100000#32))) (srcOf e))))))

/-- The whole network on the host's operations: aggregate(x·W₁), the gated mix, aggregate(·W₂), the bias. -/
def valueOf (x : FVec Ideal S100000x256 .f32) (e : IVec S2x1600000 32) (W1 : FVec Ideal S256x128 .f32) (b1 : FVec Ideal S128 .f32)
    (a0 a1 a2 a3 : FVec Ideal S_ .f32) (W2 : FVec Ideal S128x64 .f32) (b2 : FVec Ideal S64 .f32) : FVec Ideal S100000x64 .f32 :=
  biasOf (agg64 e (Host.dotGeneral dot_S100000x128_S128x64_S100000x64_1_0_0_1_n_n none
    (mixOf (agg128 e (Host.dotGeneral dot_S100000x256_S256x128_S100000x128_1_0_0_1_n_n none x W1)) b1 a0 a1 a2 a3) W2)) b2

end Cert.Spec

end
-- ==== Proof.KernelHost.lean ====
import proofs.«128814_j14697378087207_1_alg».proof.Proof.Gen.KernelIdeal.Regions
import proofs.«128814_j14697378087207_1_alg».proof.Proof.Aggregate
import Idealize.ShloMosaic.Lib.StableHlo.Run
import Idealize.ShloMosaic.Lib.ValueIdx
import Idealize.ShloMosaic.Lib.ValueLayout
import Idealize.ShloMosaic.Lib.Pipeline.Value

/-! # The host side of the layer at the exact extended reals

Between the four pipeline regions the program runs stretches of host operations. This file reads, off the
buffer contents between the program's items, what those stretches leave in the buffers the regions and the final
comparison use: the source and destination vectors with the self-loops appended, the edge weights, the two weighted
aggregations (of whatever the preceding region left in its output array), and the bias and coefficient rows handed to
the pointwise regions. Each is the corresponding whole-array function of the edge list and the arguments. -/

noncomputable section

namespace Cert.KernelIdeal.HandValue

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (outs : Outs (F := Ideal)) (c : Dev nD)

/-! ## Before the first region: the graph's vectors and the edge weights -/

/-- After the first stretch: the sources, then the self-loops. -/
theorem first_src : V1 m c main_v5 = Cert.Spec.srcOf (m ((c.tc : Thread nD τ).loc main_arg1)) := by
  show StableHlo.after hostOps0 (V0 m c) (Proc.devRef .tc main_v5) = _
  after_results
  rfl

/-- After the first stretch: the destinations, then the self-loops. -/
theorem first_dst : V1 m c main_v6 = Cert.Spec.dstOf (m ((c.tc : Thread nD τ).loc main_arg1)) := by
  show StableHlo.after hostOps0 (V0 m c) (Proc.devRef .tc main_v6) = _
  after_results
  rfl

/-- After the first stretch: every node's in-degree, a one added at each edge's destination. -/
theorem first_deg : V1 m c main_v10 = Cert.Spec.degOf (m ((c.tc : Thread nD τ).loc main_arg1)) := by
  show StableHlo.after hostOps0 (V0 m c) (Proc.devRef .tc main_v10) = _
  after_results
  rfl

/-- After the first stretch: where the in-degree is positive. -/
theorem first_pos : (V1 m c main_v12 : IVec S100000 1)
    = cmpf (F := Ideal) .ogt (Cert.Spec.degOf (m ((c.tc : Thread nD τ).loc main_arg1))) (broadcastInDim S100000 ![] bcast_S_S100000 (constant (F := Ideal) S_ .f32 0x00000000#32)) := by
  show StableHlo.after hostOps0 (V0 m c) (Proc.devRef .tc main_v12) = _
  after_results
  rfl

/-- After the first stretch: the inverse square root of the in-degree. -/
theorem first_rsqrt : (V1 m c main_v13 : FVec Ideal S100000 .f32) = Host.rsqrt (Cert.Spec.degOf (m ((c.tc : Thread nD τ).loc main_arg1))) := by
  show StableHlo.after hostOps0 (V0 m c) (Proc.devRef .tc main_v13) = _
  after_results
  rfl

/-- After the first stretch: the scalar zero the next stretch substitutes where the in-degree is not positive. -/
theorem first_zero : (V1 m c main_cst_2 : FVec Ideal S_ .f32) = constant (F := Ideal) S_ .f32 0x00000000#32 := by
  show StableHlo.after hostOps0 (V0 m c) (Proc.devRef .tc main_cst_2) = _
  after_results

/-- The outlined substitution, over any contents `W` of the buffers before it: the third operand's scalar is broadcast
    and chosen where the first operand's bit is not set. -/
theorem where_call (W : Valuation τ sig (Elt Ideal)) :
    StableHlo.after hostOps0_1 W (Proc.devRef .tc main_v14)
      = select (W (Proc.devRef .tc main_v12) : IVec S100000 1) (W (Proc.devRef .tc main_v13) : FVec Ideal S100000 .f32)
          (broadcastInDim S100000 ![] bcast_S_S100000 (id (W (Proc.devRef .tc main_cst_2) : FVec Ideal S_ .f32))) := by
  after_results
  rfl

/-- After the second stretch: the inverse square root of the in-degree where it is positive, zero elsewhere. -/
theorem second_dinv : V2 m c main_v14 = Cert.Spec.dinvOf (m ((c.tc : Thread nD τ).loc main_arg1)) := by
  refine (where_call (V1 m c)).trans ?_
  rw [first_pos, first_rsqrt, first_zero]
  rfl

/-- The second stretch leaves the sources and the destinations alone. -/
theorem second_src : V2 m c main_v5 = Cert.Spec.srcOf (m ((c.tc : Thread nD τ).loc main_arg1)) :=
  (V2_of m c main_v5 (by decide)).trans (first_src m c)
theorem second_dst : V2 m c main_v6 = Cert.Spec.dstOf (m ((c.tc : Thread nD τ).loc main_arg1)) :=
  (V2_of m c main_v6 (by decide)).trans (first_dst m c)

/-- When the first region is entered: the sources, then the self-loops. -/
theorem head_src : V3 m c main_v5 = Cert.Spec.srcOf (m ((c.tc : Thread nD τ).loc main_arg1)) :=
  (V3_of m c main_v5 (by decide)).trans (second_src m c)

/-- When the first region is entered: the destinations, then the self-loops. -/
theorem head_dst : V3 m c main_v6 = Cert.Spec.dstOf (m ((c.tc : Thread nD τ).loc main_arg1)) :=
  (V3_of m c main_v6 (by decide)).trans (second_dst m c)

/-- The third stretch, over any contents `W` of the buffers before it: an edge's weight is the product of the factors
    gathered at its two endpoints, a negative node number read from the end. -/
theorem weights_stretch (W : Valuation τ sig (Elt Ideal)) :
    StableHlo.after hostOps0_2 W (Proc.devRef .tc main_v29)
      = ((mulf (Host.gather gather_S100000_S1700000x1_S1700000_n_0_n_n_0_1_1 (W (Proc.devRef .tc main_v14) : FVec Ideal S100000 .f32) (broadcastInDim S1700000x1 ![0] bcast_S1700000_S1700000x1_0 (select (cmpi .slt (W (Proc.devRef .tc main_v5) : IVec S1700000 32) (broadcastInDim S1700000 ![] bcast_S_S1700000 (constantI S_ 32 0#32))) (addi (W (Proc.devRef .tc main_v5) : IVec S1700000 32) (broadcastInDim S1700000 ![] bcast_S_S1700000 (constantI S_ 32 100000#32))) (W (Proc.devRef .tc main_v5) : IVec S1700000 32)))) (Host.gather gather_S100000_S1700000x1_S1700000_n_0_n_n_0_1_1 (W (Proc.devRef .tc main_v14) : FVec Ideal S100000 .f32) (broadcastInDim S1700000x1 ![0] bcast_S1700000_S1700000x1_0 (select (cmpi .slt (W (Proc.devRef .tc main_v6) : IVec S1700000 32) (broadcastInDim S1700000 ![] bcast_S_S1700000 (constantI S_ 32 0#32))) (addi (W (Proc.devRef .tc main_v6) : IVec S1700000 32) (broadcastInDim S1700000 ![] bcast_S_S1700000 (constantI S_ 32 100000#32))) (W (Proc.devRef .tc main_v6) : IVec S1700000 32))))) : FVec Ideal S1700000 .f32) := by
  after_results_simp

/-- When the first region is entered: each edge's weight, the product of its two endpoints' factors. -/
theorem head_norm : V3 m c main_v29 = Cert.Spec.normOf (m ((c.tc : Thread nD τ).loc main_arg1)) := by
  refine (weights_stretch (V2 m c)).trans ?_
  rw [second_dinv, second_src, second_dst]
  rfl

/-! ## Between the first and the second region -/

/-- The first region's output array holds what the region left there. -/
theorem fourth_out : V4 m outs c main_v30 = outs 4 main_v30 c := by
  simp only [V4, Function.update_self]

/-- The first region leaves the graph's vectors and the edge weights alone. -/
theorem fourth_src : V4 m outs c main_v5 = Cert.Spec.srcOf (m ((c.tc : Thread nD τ).loc main_arg1)) :=
  (V4_of m outs c main_v5 (by decide)).trans (head_src m c)
theorem fourth_dst : V4 m outs c main_v6 = Cert.Spec.dstOf (m ((c.tc : Thread nD τ).loc main_arg1)) :=
  (V4_of m outs c main_v6 (by decide)).trans (head_dst m c)
theorem fourth_norm : V4 m outs c main_v29 = Cert.Spec.normOf (m ((c.tc : Thread nD τ).loc main_arg1)) :=
  (V4_of m outs c main_v29 (by decide)).trans (head_norm m c)

/-- The arguments the fourth stretch reads are as launched. -/
theorem fourth_arg3 : V4 m outs c main_arg3 = m ((c.tc : Thread nD τ).loc main_arg3) :=
  (V4_of m outs c main_arg3 (by decide)).trans <| (V3_of m c main_arg3 (by decide)).trans <| (V2_of m c main_arg3 (by decide)).trans <| (V1_of m c main_arg3 (by decide)).trans rfl
theorem fourth_arg4 : V4 m outs c main_arg4 = m ((c.tc : Thread nD τ).loc main_arg4) :=
  (V4_of m outs c main_arg4 (by decide)).trans <| (V3_of m c main_arg4 (by decide)).trans <| (V2_of m c main_arg4 (by decide)).trans <| (V1_of m c main_arg4 (by decide)).trans rfl
theorem fourth_arg5 : V4 m outs c main_arg5 = m ((c.tc : Thread nD τ).loc main_arg5) :=
  (V4_of m outs c main_arg5 (by decide)).trans <| (V3_of m c main_arg5 (by decide)).trans <| (V2_of m c main_arg5 (by decide)).trans <| (V1_of m c main_arg5 (by decide)).trans rfl
theorem fourth_arg6 : V4 m outs c main_arg6 = m ((c.tc : Thread nD τ).loc main_arg6) :=
  (V4_of m outs c main_arg6 (by decide)).trans <| (V3_of m c main_arg6 (by decide)).trans <| (V2_of m c main_arg6 (by decide)).trans <| (V1_of m c main_arg6 (by decide)).trans rfl
theorem fourth_arg7 : V4 m outs c main_arg7 = m ((c.tc : Thread nD τ).loc main_arg7) :=
  (V4_of m outs c main_arg7 (by decide)).trans <| (V3_of m c main_arg7 (by decide)).trans <| (V2_of m c main_arg7 (by decide)).trans <| (V1_of m c main_arg7 (by decide)).trans rfl

/-- The fourth stretch, over any contents `W` of the buffers before it: row `d` of the result sums, over the edges
    into `d`, the edge's weight times the row of the feature matrix gathered at the edge's source. -/
theorem agg128_stretch (W : Valuation τ sig (Elt Ideal)) :
    StableHlo.after hostOps1 W (Proc.devRef .tc main_v43)
      = ((Host.scatterAdd scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 (W (Proc.devRef .tc main_v6) : IVec S1700000 32)) (mulf (broadcastInDim S1700000x128 ![0, 1] bcast_S1700000x1_S1700000x128_0_1 (broadcastInDim S1700000x1 ![0] bcast_S1700000_S1700000x1_0 (W (Proc.devRef .tc main_v29) : FVec Ideal S1700000 .f32))) (Host.gather gather_S100000x128_S1700000x1_S1700000x128_1_0_n_n_0_1_1128 (W (Proc.devRef .tc main_v30) : FVec Ideal S100000x128 .f32) (broadcastInDim S1700000x1 ![0] bcast_S1700000_S1700000x1_0 (select (cmpi .slt (W (Proc.devRef .tc main_v5) : IVec S1700000 32) (broadcastInDim S1700000 ![] bcast_S_S1700000 (constantI S_ 32 0#32))) (addi (W (Proc.devRef .tc main_v5) : IVec S1700000 32) (broadcastInDim S1700000 ![] bcast_S_S1700000 (constantI S_ 32 100000#32))) (W (Proc.devRef .tc main_v5) : IVec S1700000 32)))))) : FVec Ideal S100000x128 .f32) := by
  after_results_simp

/-- When the second region is entered: the weighted aggregation of what the first region left. -/
theorem stretch1_agg : V5 m outs c main_v43 = Cert.Spec.agg128 (m ((c.tc : Thread nD τ).loc main_arg1)) (outs 4 main_v30 c) := by
  refine (agg128_stretch (V4 m outs c)).trans ?_
  rw [fourth_dst, fourth_norm, fourth_src, fourth_out]
  rfl

/-- The fourth stretch, over any contents `W`: the first layer's bias as a one-row matrix. -/
theorem bias128_stretch (W : Valuation τ sig (Elt Ideal)) :
    StableHlo.after hostOps1 W (Proc.devRef .tc main_v49)
      = shapeCast S1x128 (W (Proc.devRef .tc main_arg3) : FVec Ideal S128 .f32) shapeCasts_S128_S1x128 := by
  after_results
  rfl

/-- When the second region is entered: entry `a` of the bias row is entry `a` of the bias argument. -/
theorem stretch1_bias (a : Fin 128) :
    V5 m outs c main_v49 (ix2 (0 : Fin 1) a) = m ((c.tc : Thread nD τ).loc main_arg3) (ix1 a) := by
  refine (congrFun (bias128_stretch (V4 m outs c)) (ix2 (0 : Fin 1) a)).trans ?_
  rw [fourth_arg3]
  exact shapeCast_a_1a_apply _ _ 0 a

/-- The fourth stretch, over any contents `W`: the four scalar coefficients, each as a one-entry vector, joined
    end to end and laid out as a one-row matrix. -/
theorem coeff_stretch (W : Valuation τ sig (Elt Ideal)) :
    StableHlo.after hostOps1 W (Proc.devRef .tc main_v50)
      = shapeCast S1x4 (concatenate S4 0
          [⟨S1, broadcastInDim S1 ![] bcast_S_S1 (W (Proc.devRef .tc main_arg4) : FVec Ideal S_ .f32)⟩,
           ⟨S1, broadcastInDim S1 ![] bcast_S_S1 (W (Proc.devRef .tc main_arg5) : FVec Ideal S_ .f32)⟩,
           ⟨S1, broadcastInDim S1 ![] bcast_S_S1 (W (Proc.devRef .tc main_arg6) : FVec Ideal S_ .f32)⟩,
           ⟨S1, broadcastInDim S1 ![] bcast_S_S1 (W (Proc.devRef .tc main_arg7) : FVec Ideal S_ .f32)⟩]
          concatenates_S1_S1_S1_S1_S4_d0 : FVec Ideal S4 .f32) shapeCasts_S4_S1x4 := by
  after_results
  rfl

/-- A scalar broadcast to a one-entry vector reads the scalar. -/
theorem scalar_row_apply (u : FVec Ideal S_ .f32) (i : S1.Idx) : broadcastInDim S1 ![] bcast_S_S1 u i = u ix0 :=
  show u _ = u ix0 from congrArg u (funext fun a => a.elim0)

/-- Four scalars, each as a one-entry vector, in order. -/
abbrev coeffPieces (u0 u1 u2 u3 : FVec Ideal S_ .f32) : List ((s : Shape) × (s.Idx → Ideal .f32)) :=
  [⟨S1, broadcastInDim S1 ![] bcast_S_S1 u0⟩, ⟨S1, broadcastInDim S1 ![] bcast_S_S1 u1⟩,
   ⟨S1, broadcastInDim S1 ![] bcast_S_S1 u2⟩, ⟨S1, broadcastInDim S1 ![] bcast_S_S1 u3⟩]

/-- Joined end to end and laid out as one row: entry `k` of the row is the `k`-th scalar. -/
theorem coeff_row_apply (u0 u1 u2 u3 : FVec Ideal S_ .f32) (k : Fin 4) :
    shapeCast S1x4 (concatenate S4 0 (coeffPieces u0 u1 u2 u3) concatenates_S1_S1_S1_S1_S4_d0 : FVec Ideal S4 .f32)
        shapeCasts_S4_S1x4 (ix2 (0 : Fin 1) k)
      = (![u0, u1, u2, u3] k) ix0 := by
  refine (shapeCast_a_1a_apply _ _ 0 k).trans ?_
  match k with
  | ⟨0, _⟩ =>
    refine (concatenate_apply_piece (t := S4) (0 : Fin 1) (coeffPieces u0 u1 u2 u3) concatenates_S1_S1_S1_S1_S4_d0 (ix1 (0 : Fin 4)) 0 (by show 0 < 4; decide) S1
      (broadcastInDim S1 ![] bcast_S_S1 u0) rfl rfl 0 rfl (ix1 (0 : Fin 1)) (fun b hb => absurd (Subsingleton.elim _ _) hb) rfl).trans ?_
    exact scalar_row_apply _ _
  | ⟨1, _⟩ =>
    refine (concatenate_apply_piece (t := S4) (0 : Fin 1) (coeffPieces u0 u1 u2 u3) concatenates_S1_S1_S1_S1_S4_d0 (ix1 (1 : Fin 4)) 1 (by show 1 < 4; decide) S1
      (broadcastInDim S1 ![] bcast_S_S1 u1) rfl rfl 1 rfl (ix1 (0 : Fin 1)) (fun b hb => absurd (Subsingleton.elim _ _) hb) rfl).trans ?_
    exact scalar_row_apply _ _
  | ⟨2, _⟩ =>
    refine (concatenate_apply_piece (t := S4) (0 : Fin 1) (coeffPieces u0 u1 u2 u3) concatenates_S1_S1_S1_S1_S4_d0 (ix1 (2 : Fin 4)) 2 (by show 2 < 4; decide) S1
      (broadcastInDim S1 ![] bcast_S_S1 u2) rfl rfl 2 rfl (ix1 (0 : Fin 1)) (fun b hb => absurd (Subsingleton.elim _ _) hb) rfl).trans ?_
    exact scalar_row_apply _ _
  | ⟨3, _⟩ =>
    refine (concatenate_apply_piece (t := S4) (0 : Fin 1) (coeffPieces u0 u1 u2 u3) concatenates_S1_S1_S1_S1_S4_d0 (ix1 (3 : Fin 4)) 3 (by show 3 < 4; decide) S1
      (broadcastInDim S1 ![] bcast_S_S1 u3) rfl rfl 3 rfl (ix1 (0 : Fin 1)) (fun b hb => absurd (Subsingleton.elim _ _) hb) rfl).trans ?_
    exact scalar_row_apply _ _
/-- When the second region is entered: the four entries of the coefficient row are the four scalar arguments. -/
theorem stretch1_co (k : Fin 4) :
    V5 m outs c main_v50 (ix2 (0 : Fin 1) k)
      = (![(m ((c.tc : Thread nD τ).loc main_arg4) : FVec Ideal S_ .f32), m ((c.tc : Thread nD τ).loc main_arg5),
           m ((c.tc : Thread nD τ).loc main_arg6), m ((c.tc : Thread nD τ).loc main_arg7)] k) ix0 := by
  refine (congrFun (coeff_stretch (V4 m outs c)) (ix2 (0 : Fin 1) k)).trans ?_
  rw [fourth_arg4, fourth_arg5, fourth_arg6, fourth_arg7]
  exact coeff_row_apply _ _ _ _ k
theorem stretch1_co0 : V5 m outs c main_v50 (ix2 (0 : Fin 1) (0 : Fin 4)) = m ((c.tc : Thread nD τ).loc main_arg4) ix0 :=
  stretch1_co m outs c 0
theorem stretch1_co1 : V5 m outs c main_v50 (ix2 (0 : Fin 1) (1 : Fin 4)) = m ((c.tc : Thread nD τ).loc main_arg5) ix0 :=
  stretch1_co m outs c 1
theorem stretch1_co2 : V5 m outs c main_v50 (ix2 (0 : Fin 1) (2 : Fin 4)) = m ((c.tc : Thread nD τ).loc main_arg6) ix0 :=
  stretch1_co m outs c 2
theorem stretch1_co3 : V5 m outs c main_v50 (ix2 (0 : Fin 1) (3 : Fin 4)) = m ((c.tc : Thread nD τ).loc main_arg7) ix0 :=
  stretch1_co m outs c 3

/-! ## Between the third and the fourth region -/

/-- The third region's output array holds what the region left there. -/
theorem seventh_out : V7 m outs c main_v52 = outs 7 main_v52 c := by
  simp only [V7, Function.update_self]

/-- Nothing since the first region has touched the graph's vectors and the edge weights. -/
theorem seventh_src : V7 m outs c main_v5 = Cert.Spec.srcOf (m ((c.tc : Thread nD τ).loc main_arg1)) :=
  (V7_of m outs c main_v5 (by decide)).trans <| (V6_of m outs c main_v5 (by decide)).trans <| (V5_of m outs c main_v5 (by decide)).trans (fourth_src m outs c)
theorem seventh_dst : V7 m outs c main_v6 = Cert.Spec.dstOf (m ((c.tc : Thread nD τ).loc main_arg1)) :=
  (V7_of m outs c main_v6 (by decide)).trans <| (V6_of m outs c main_v6 (by decide)).trans <| (V5_of m outs c main_v6 (by decide)).trans (fourth_dst m outs c)
theorem seventh_norm : V7 m outs c main_v29 = Cert.Spec.normOf (m ((c.tc : Thread nD τ).loc main_arg1)) :=
  (V7_of m outs c main_v29 (by decide)).trans <| (V6_of m outs c main_v29 (by decide)).trans <| (V5_of m outs c main_v29 (by decide)).trans (fourth_norm m outs c)
theorem seventh_arg9 : V7 m outs c main_arg9 = m ((c.tc : Thread nD τ).loc main_arg9) :=
  (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide)).trans rfl

/-- The last stretch, over any contents `W` of the buffers before it: the same aggregation on 64 columns. -/
theorem agg64_stretch (W : Valuation τ sig (Elt Ideal)) :
    StableHlo.after hostOps3 W (Proc.devRef .tc main_v65)
      = ((Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (W (Proc.devRef .tc main_v6) : IVec S1700000 32)) (mulf (broadcastInDim S1700000x64 ![0, 1] bcast_S1700000x1_S1700000x64_0_1 (broadcastInDim S1700000x1 ![0] bcast_S1700000_S1700000x1_0 (W (Proc.devRef .tc main_v29) : FVec Ideal S1700000 .f32))) (Host.gather gather_S100000x64_S1700000x1_S1700000x64_1_0_n_n_0_1_164 (W (Proc.devRef .tc main_v52) : FVec Ideal S100000x64 .f32) (broadcastInDim S1700000x1 ![0] bcast_S1700000_S1700000x1_0 (select (cmpi .slt (W (Proc.devRef .tc main_v5) : IVec S1700000 32) (broadcastInDim S1700000 ![] bcast_S_S1700000 (constantI S_ 32 0#32))) (addi (W (Proc.devRef .tc main_v5) : IVec S1700000 32) (broadcastInDim S1700000 ![] bcast_S_S1700000 (constantI S_ 32 100000#32))) (W (Proc.devRef .tc main_v5) : IVec S1700000 32)))))) : FVec Ideal S100000x64 .f32) := by
  after_results_simp

/-- When the fourth region is entered: the weighted aggregation of what the third region left. -/
theorem stretch3_agg : V8 m outs c main_v65 = Cert.Spec.agg64 (m ((c.tc : Thread nD τ).loc main_arg1)) (outs 7 main_v52 c) := by
  refine (agg64_stretch (V7 m outs c)).trans ?_
  rw [seventh_dst, seventh_norm, seventh_src, seventh_out]
  rfl

/-- The last stretch, over any contents `W`: the second layer's bias as a one-row matrix. -/
theorem bias64_stretch (W : Valuation τ sig (Elt Ideal)) :
    StableHlo.after hostOps3 W (Proc.devRef .tc main_v66)
      = shapeCast S1x64 (W (Proc.devRef .tc main_arg9) : FVec Ideal S64 .f32) shapeCasts_S64_S1x64 := by
  after_results
  rfl

/-- When the fourth region is entered: entry `a` of the bias row is entry `a` of the bias argument. -/
theorem stretch3_bias (a : Fin 64) :
    V8 m outs c main_v66 (ix2 (0 : Fin 1) a) = m ((c.tc : Thread nD τ).loc main_arg9) (ix1 a) := by
  refine (congrFun (bias64_stretch (V7 m outs c)) (ix2 (0 : Fin 1) a)).trans ?_
  rw [seventh_arg9]
  exact shapeCast_a_1a_apply _ _ 0 a

end Cert.KernelIdeal.HandValue

end
-- ==== Proof.KernelValue.lean ====
import proofs.«128814_j14697378087207_1_alg».proof.Proof.IdealRunBase
import proofs.«128814_j14697378087207_1_alg».proof.Proof.IdealValue0
import proofs.«128814_j14697378087207_1_alg».proof.Proof.IdealValue1
import proofs.«128814_j14697378087207_1_alg».proof.Proof.IdealValue2
import proofs.«128814_j14697378087207_1_alg».proof.Proof.IdealValue3
import proofs.«128814_j14697378087207_1_alg».proof.Proof.KernelHost
import proofs.«128814_j14697378087207_1_alg».proof.Proof.Aggregate
import proofs.«128814_j14697378087207_1_alg».proof.Proof.LibMatrixProduct

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand
open Cert.MatrixProduct (mm)
open Cert.Spec (agg128 agg64 mixOf biasOf valueOf)

/-! # The program's result as the network's value

The last region's output array, traced back through the four regions and the two aggregation stretches to the
arguments: a row-tiled product is the matrix product, a pointwise region is its whole-array function, a stretch carries
what the region before it left, and an argument no item writes is still the launch's. -/

/-! ## The network with the products written as matrix products -/

theorem dot1_eq_mm (A : FVec Ideal Cert.ReferenceIdeal.S100000x256 .f32) (B : FVec Ideal Cert.ReferenceIdeal.S256x128 .f32) :
    Host.dotGeneral Cert.ReferenceIdeal.dot_S100000x256_S256x128_S100000x128_1_0_0_1_n_n none A B = mm A B :=
  Cert.MatrixProduct.dotGeneral_eq_mm _ none A B

theorem dot2_eq_mm (A : FVec Ideal Cert.ReferenceIdeal.S100000x128 .f32) (B : FVec Ideal Cert.ReferenceIdeal.S128x64 .f32) :
    Host.dotGeneral Cert.ReferenceIdeal.dot_S100000x128_S128x64_S100000x64_1_0_0_1_n_n none A B = mm A B :=
  Cert.MatrixProduct.dotGeneral_eq_mm _ none A B

/-- The network's value with its two products as matrix products. -/
theorem valueOf_eq (x : FVec Ideal Cert.ReferenceIdeal.S100000x256 .f32) (e : IVec Cert.ReferenceIdeal.S2x1600000 32)
    (W1 : FVec Ideal Cert.ReferenceIdeal.S256x128 .f32) (b1 : FVec Ideal Cert.ReferenceIdeal.S128 .f32)
    (a0 a1 a2 a3 : FVec Ideal Cert.ReferenceIdeal.S_ .f32) (W2 : FVec Ideal Cert.ReferenceIdeal.S128x64 .f32)
    (b2 : FVec Ideal Cert.ReferenceIdeal.S64 .f32) :
    valueOf x e W1 b1 a0 a1 a2 a3 W2 b2 = biasOf (agg64 e (mm (mixOf (agg128 e (mm x W1)) b1 a0 a1 a2 a3) W2)) b2 := by
  unfold Cert.Spec.valueOf
  rw [dot1_eq_mm, dot2_eq_mm]

variable (m : (ℓ : Loc nD τ sig) → Buf (Elt Ideal) ℓ) (c : Dev nD)

/-! ## The arguments are still the launch's where the regions read them -/

theorem ent0_arg0 : ent0 m c main_arg0 = m ((c.tc : Thread nD τ).loc main_arg0) :=
  (V3_of m c main_arg0 (by decide)).trans ((V2_of m c main_arg0 (by decide)).trans ((V1_of m c main_arg0 (by decide)).trans rfl))

theorem ent0_arg2 : ent0 m c main_arg2 = m ((c.tc : Thread nD τ).loc main_arg2) :=
  (V3_of m c main_arg2 (by decide)).trans ((V2_of m c main_arg2 (by decide)).trans ((V1_of m c main_arg2 (by decide)).trans rfl))

theorem ent2_arg8 : ent2 m c main_arg8 = m ((c.tc : Thread nD τ).loc main_arg8) :=
  (V6_of m (outsB m) c main_arg8 (by decide)).trans ((V5_of m (outsB m) c main_arg8 (by decide)).trans
    ((V4_of m (outsB m) c main_arg8 (by decide)).trans ((V3_of m c main_arg8 (by decide)).trans
      ((V2_of m c main_arg8 (by decide)).trans ((V1_of m c main_arg8 (by decide)).trans rfl)))))

/-! ## The tables' entries at their positions -/

theorem tableA_at4 : outsA m 4 main_v30 c = left0 m c (Proc.devRef .tc (Pipeline.arrRef spec0 2)) := rfl
theorem tableB_at6 : outsB m 6 main_v51 c = left1 m c (Proc.devRef .tc (Pipeline.arrRef spec1 3)) := rfl
theorem tableC_at7 : outsC m 7 main_v52 c = left2 m c (Proc.devRef .tc (Pipeline.arrRef spec2 2)) := rfl

/-- Region 2 finds region 1's result where region 1 left it. -/
theorem ent2_v51 : ent2 m c main_v51 = outsB m 6 main_v51 c := by
  show Function.update (V5 m (outsB m) c) (Proc.devRef .tc main_v51) (outsB m 6 main_v51 c) (Proc.devRef .tc main_v51) = _
  rw [Function.update_self]

/-! ## The chain, region by region -/

/-- Region 0 leaves the product of the input features with the first weight matrix. -/
theorem value0 : (outsA m 4 main_v30 c : FVec Ideal S100000x128 .f32)
    = mm (m ((c.tc : Thread nD τ).loc main_arg0) : FVec Ideal S100000x256 .f32) (m ((c.tc : Thread nD τ).loc main_arg2) : FVec Ideal S256x128 .f32) := by
  rw [tableA_at4, left0_arr m c 2, final0 (ent0 m) c, ent0_arg0, ent0_arg2]

/-- Region 1 finds its aggregation over the edges. -/
theorem ent1_v43 : (ent1 m c main_v43 : FVec Ideal S100000x128 .f32)
    = agg128 (m ((c.tc : Thread nD τ).loc main_arg1))
        (mm (m ((c.tc : Thread nD τ).loc main_arg0) : FVec Ideal S100000x256 .f32) (m ((c.tc : Thread nD τ).loc main_arg2) : FVec Ideal S256x128 .f32)) := by
  show V5 m (outsA m) c main_v43 = _
  rw [stretch1_agg m (outsA m) c, value0]

/-- Region 1 leaves the gated mix of it. -/
theorem value1 : (outsB m 6 main_v51 c : FVec Ideal S100000x128 .f32)
    = mixOf (agg128 (m ((c.tc : Thread nD τ).loc main_arg1))
        (mm (m ((c.tc : Thread nD τ).loc main_arg0) : FVec Ideal S100000x256 .f32) (m ((c.tc : Thread nD τ).loc main_arg2) : FVec Ideal S256x128 .f32)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rw [tableB_at6, left1_arr m c 3,
    final1 (ent1 m) c (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
      (stretch1_bias m (outsA m) c) (stretch1_co0 m (outsA m) c) (stretch1_co1 m (outsA m) c) (stretch1_co2 m (outsA m) c) (stretch1_co3 m (outsA m) c),
    ent1_v43]

/-- Region 2 leaves its product with the second weight matrix. -/
theorem value2 : (outsC m 7 main_v52 c : FVec Ideal S100000x64 .f32)
    = mm (mixOf (agg128 (m ((c.tc : Thread nD τ).loc main_arg1))
        (mm (m ((c.tc : Thread nD τ).loc main_arg0) : FVec Ideal S100000x256 .f32) (m ((c.tc : Thread nD τ).loc main_arg2) : FVec Ideal S256x128 .f32)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) : FVec Ideal S100000x128 .f32)
      (m ((c.tc : Thread nD τ).loc main_arg8) : FVec Ideal S128x64 .f32) := by
  rw [tableC_at7, left2_arr m c 2, final2 (ent2 m) c, ent2_v51, value1, ent2_arg8]

/-- Region 3 finds its aggregation over the edges. -/
theorem ent3_v65 : (ent3 m c main_v65 : FVec Ideal S100000x64 .f32)
    = agg64 (m ((c.tc : Thread nD τ).loc main_arg1))
      (mm (mixOf (agg128 (m ((c.tc : Thread nD τ).loc main_arg1))
        (mm (m ((c.tc : Thread nD τ).loc main_arg0) : FVec Ideal S100000x256 .f32) (m ((c.tc : Thread nD τ).loc main_arg2) : FVec Ideal S256x128 .f32)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) : FVec Ideal S100000x128 .f32)
      (m ((c.tc : Thread nD τ).loc main_arg8) : FVec Ideal S128x64 .f32)) := by
  show V8 m (outsC m) c main_v65 = _
  rw [stretch3_agg m (outsC m) c, value2]

/-- The last region's output array is the network's value at the arguments. -/
theorem kernel_value : (dat3 (F := Ideal) (ent3 m) c).arrAt 2 cfg3.N
    = valueOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  rw [valueOf_eq, final3 (ent3 m) c (m ((c.tc : Thread nD τ).loc main_arg9)) (stretch3_bias m (outsC m) c), ent3_v65]

end Cert.KernelIdeal.HandValue

end
-- ==== Proof.RefValue.lean ====
/-
  The reference program's result, as its run states it (one composed term of the launch contents), is the network's
  value `Cert.Spec.valueOf` of its arguments: the composed term is `valueOf` with every definition unfolded.
-/
import proofs.«128814_j14697378087207_1_alg».proof.Proof.RefRun
import proofs.«128814_j14697378087207_1_alg».proof.Proof.Aggregate

noncomputable section

namespace Cert.ReferenceIdeal.RefValue

open Idealize.ShloMosaic Idealize.ShloMosaic.TcCoe Idealize.SL.Sem Cert.ReferenceIdeal Cert.ReferenceIdeal.Gen

/-- The reference's result term is the network's value of the launch contents of its ten arguments. -/
theorem result_eq (m : (ℓ : Loc nD τ sig) → Buf (Elt Ideal) ℓ) (c : Dev nD) :
    Cert.ReferenceIdeal.ValueP.res_main_v108 (F := Ideal) m c
      = Cert.Spec.valueOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v108 Cert.Spec.valueOf Cert.Spec.biasOf Cert.Spec.mixOf Cert.Spec.agg64 Cert.Spec.agg128
    Cert.Spec.normOf Cert.Spec.dinvOf Cert.Spec.degOf Cert.Spec.srcOf Cert.Spec.dstOf
  rfl

end Cert.ReferenceIdeal.RefValue

end
-- ==== Proof.lean ====
/-
  Two layers of a graph convolution on 100000 nodes and 1600000 edges: with one self-loop per node appended, every edge
  carries the weight deg(source)^(-1/2) · deg(destination)^(-1/2) (zero where a degree is not positive), and a layer sends
  a feature matrix h to A·(h·W) + b, A the weighted adjacency. After the first layer comes the gated mix
  ½·y + ½·g(y), g(y) = a₀·y for y < 0, a₁·y for 0 ≤ y < a₂, a₃·y otherwise; the second layer's output is the result.

  The kernel program computes the two products h·W and the two pointwise stages in four tiled regions (row blocks of
  5000, twenty grid points each) and leaves the edge arithmetic (degrees, weights, gather, scale, scatter-add) to host
  operations; the reference computes everything with host operations and multiplies the result by 1. Over the extended
  reals the two agree entry by entry, with no condition on the inputs:
    * a change of float format is the identity, so a product of a row block by the whole W, summed into zeros, is the
      corresponding rows of the whole product — the same finite sum of the same terms;
    * each region's twenty row blocks tile its output array, so the array after the region is one function of its input
      arrays: the product, the gated mix, the sum with the bias row;
    * the edge arithmetic is the same operations in the same order on both sides, and is never opened;
    * 1 · x = x for every extended real x.

  The frames. The reference has no region: its run is its operations' fold. For the kernel program — as printed, and
  idealized — @main is nine items: five host stretches and four regions. Between two items every unscoped buffer is held
  at a known contents; a region changes only its output array; chaining the items gives the final memory, in which no
  argument array has been written.
-/
import proofs.«128814_j14697378087207_1_alg».proof.Defs
import proofs.«128814_j14697378087207_1_alg».proof.Proof.Gen.Kernel
import proofs.«128814_j14697378087207_1_alg».proof.Proof.Gen.KernelIdeal
import proofs.«128814_j14697378087207_1_alg».proof.Proof.Gen.ReferenceIdeal
import proofs.«128814_j14697378087207_1_alg».proof.Proof.Gen.Pre_finite_inputs
import proofs.«128814_j14697378087207_1_alg».proof.Proof.BitsRun
import proofs.«128814_j14697378087207_1_alg».proof.Proof.IdealRun
import proofs.«128814_j14697378087207_1_alg».proof.Proof.KernelValue
import proofs.«128814_j14697378087207_1_alg».proof.Proof.RefValue
import Idealize.ShloMosaic.Adequacy
import Idealize.ShloMosaic.Init

noncomputable section

namespace Cert.Proof

open Idealize.ShloMosaic Idealize.SL.Sem

/-- The program as printed runs to the end, nothing faulting, its argument arrays unchanged. -/
theorem frame_p : @Cert.frame_Kernel Cert.Kernel.Gen.facts Cert.Pre_finite_inputs.Gen.facts :=
  fun m ρ _ => Cert.Kernel.Hand.frame m ρ

/-- So does the idealized program. -/
theorem frame_pi : @Cert.frame_KernelIdeal Cert.KernelIdeal.Gen.facts Cert.Pre_finite_inputs.Gen.facts :=
  fun m ρ _ => Cert.KernelIdeal.Hand.frame m ρ

/-- The reference is host operations only: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The ideal pass rewrote no operation of the kernel program: there is nothing to preserve. -/
theorem preserves : Cert.preserves_Kernel_KernelIdeal := trivial

/-- From memories that agree on the ten arguments both programs end with the network's value of those arguments in
    their result arrays: the kernel program's last region leaves it (the four regions' outputs read as whole arrays,
    the host stretches between them as the reference's own operations), and the reference's composed term is it. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => (Cert.KernelIdeal.Hand.dat3 (F := Ideal) (Cert.KernelIdeal.Hand.ent3 m) c).arrAt 2 Cert.KernelIdeal.cfg3.N,
    Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.RefValue.result_eq m' c, h0, h1, h2, h3, h4, h5, h6, h7, h8, h9]
  exact (Cert.KernelIdeal.HandValue.kernel_value m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
